-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S5000x512 : Shape := ⟨2, ![5000, 512]⟩
abbrev S2x150000 : Shape := ⟨2, ![2, 150000]⟩
abbrev S2x100000 : Shape := ⟨2, ![2, 100000]⟩
abbrev S512x512 : Shape := ⟨2, ![512, 512]⟩
abbrev S512 : Shape := ⟨1, ![512]⟩
abbrev S512x1024 : Shape := ⟨2, ![512, 1024]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S5000x512 : S_.BroadcastsInDim S5000x512 (![] : Fin 0 → Fin S5000x512.rank)
  reducesTo_S5000x512_S_d0_1 : S5000x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_

variable [Facts]

def fn_part4 {F : FTy → Type} [FloatOps F] (main_arg17 : FVec F S512 .f32) (main_v63 : IVec S_ 1) (main_v67 : IVec S_ 1) : IVec S_ 1 :=
  let main_v68 : IVec S_ 1 := andi main_v63 main_v67
  let main_v69 : FVec F S512 .f32 := Host.absf main_arg17
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  main_v73

def fn_part3 {F : FTy → Type} [FloatOps F] (main_arg14 : FVec F S512x1024 .f32) (main_arg15 : FVec F S512 .f32) (main_arg16 : FVec F S512x1024 .f32) (main_arg17 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x1024 .f32 := Host.absf main_arg14
  let main_cst_20 : FVec F S_ .f32 := constant S_ .f32 0x7F800000#32
  let main_v55 : FVec F S512x1024 .f32 := broadcastInDim S512x1024 ![] bcast_S_S512x1024 main_cst_20
  let main_v56 : IVec S512x1024 1 := cmpf .olt main_v54 main_v55
  let main_c_21 : IVec S_ 1 := constantI S_ 1 1#1
  let main_v57 : IVec S_ 1 := (fun x v => Host.reduce IntOp.andi x v reducesTo_S512x1024_S_d0_1 h_S_) main_v56 main_c_21
  let main_v58 : IVec S_ 1 := andi main_v53 main_v57
  let main_v59 : FVec F S512 .f32 := Host.absf main_arg15
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x1024 .f32 := Host.absf main_arg16
  let main_cst_24 : FVec F S_ .f32 := constant S_ .f32 0x7F800000#32
  let main_v65 : FVec F S512x1024 .f32 := broadcastInDim S512x1024 ![] bcast_S_S512x1024 main_cst_24
  let main_v66 : IVec S512x1024 1 := cmpf .olt main_v64 main_v65
  let main_c_25 : IVec S_ 1 := constantI S_ 1 1#1
  let main_v67 : IVec S_ 1 := (fun x v => Host.reduce IntOp.andi x v reducesTo_S512x1024_S_d0_1 h_S_) main_v66 main_c_25
  fn_part4 (F := F) main_arg17 main_v63 main_v67

def fn_part2 {F : FTy → Type} [FloatOps F] (main_arg10 : FVec F S512 .f32) (main_arg11 : FVec F S512x512 .f32) (main_arg12 : FVec F S512x512 .f32) (main_arg13 : FVec F S512 .f32) (main_arg14 : FVec F S512x1024 .f32) (main_arg15 : FVec F S512 .f32) (main_arg16 : FVec F S512x1024 .f32) (main_arg17 : FVec F S512 .f32) (main_v33 : IVec S_ 1) : IVec S_ 1 :=
  let main_v34 : FVec F S512 .f32 := Host.absf main_arg10
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg11
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg12
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg13
  let main_cst_18 : FVec F S_ .f32 := constant S_ .f32 0x7F800000#32
  let main_v50 : FVec F S512 .f32 := broadcastInDim S512 ![] bcast_S_S512 main_cst_18
  fn_part3 (F := F) main_arg14 main_arg15 main_arg16 main_arg17 main_v48 main_v49 main_v50

def fn_part1 {F : FTy → Type} [FloatOps F] (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S512x1024 .f32) (main_arg15 : FVec F S512 .f32) (main_arg16 : FVec F S512x1024 .f32) (main_arg17 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg7
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg8
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg9
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : FVec F S50000x512 .f32) (main_arg1 : FVec F S5000x512 .f32) (main_arg2 : IVec S2x150000 32) (main_arg3 : IVec S2x100000 32) (main_arg4 : IVec S2x100000 32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S512x1024 .f32) (main_arg15 : FVec F S512 .f32) (main_arg16 : FVec F S512x1024 .f32) (main_arg17 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S5000x512 .f32 := Host.absf main_arg1
  let main_cst_0 : FVec F S_ .f32 := constant S_ .f32 0x7F800000#32
  let main_v5 : FVec F S5000x512 .f32 := broadcastInDim S5000x512 ![] bcast_S_S5000x512 main_cst_0
  let main_v6 : IVec S5000x512 1 := cmpf .olt main_v4 main_v5
  let main_c_1 : IVec S_ 1 := constantI S_ 1 1#1
  let main_v7 : IVec S_ 1 := (fun x v => Host.reduce IntOp.andi x v reducesTo_S5000x512_S_d0_1 h_S_) main_v6 main_c_1
  let main_v8 : IVec S_ 1 := andi main_v3 main_v7
  let main_v9 : FVec F S512x512 .f32 := Host.absf main_arg5
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg6
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S50000x512 : Shape := ⟨2, ![50000, 512]⟩
abbrev S5000x512 : Shape := ⟨2, ![5000, 512]⟩
abbrev S2x150000 : Shape := ⟨2, ![2, 150000]⟩
abbrev S2x100000 : Shape := ⟨2, ![2, 100000]⟩
abbrev S512x512 : Shape := ⟨2, ![512, 512]⟩
abbrev S512 : Shape := ⟨1, ![512]⟩
abbrev S512x1024 : Shape := ⟨2, ![512, 1024]⟩
abbrev S1x150000 : Shape := ⟨2, ![1, 150000]⟩
abbrev S150000 : Shape := ⟨1, ![150000]⟩
abbrev S1x100000 : Shape := ⟨2, ![1, 100000]⟩
abbrev S100000 : Shape := ⟨1, ![100000]⟩
abbrev S_ : Shape := ⟨0, ![]⟩
abbrev S150000x1 : Shape := ⟨2, ![150000, 1]⟩
abbrev S150000x512 : Shape := ⟨2, ![150000, 512]⟩
abbrev S50000 : Shape := ⟨1, ![50000]⟩
abbrev S50000x1 : Shape := ⟨2, ![50000, 1]⟩
abbrev S100000x1 : Shape := ⟨2, ![100000, 1]⟩
abbrev S100000x512 : Shape := ⟨2, ![100000, 512]⟩
abbrev S5000 : Shape := ⟨1, ![5000]⟩
abbrev S5000x1 : Shape := ⟨2, ![5000, 1]⟩
abbrev S1024x512 : Shape := ⟨2, ![1024, 512]⟩
abbrev S1x512 : Shape := ⟨2, ![1, 512]⟩
abbrev S1000x512 : Shape := ⟨2, ![1000, 512]⟩
abbrev S1000x1 : Shape := ⟨2, ![1000, 1]⟩
abbrev S1000 : Shape := ⟨1, ![1000]⟩

abbrev nBuf : Space → Nat
  | .hbm => 119
  | .vmem => 35
  | .smem => 0
  | _ => 0

abbrev bufTy : (tb : Table) → Fin (tcTables nBuf tb) → BufTy
  | .hbm, ⟨0, _⟩ => ⟨S50000x512, .f32⟩
  | .hbm, ⟨1, _⟩ => ⟨S5000x512, .f32⟩
  | .hbm, ⟨2, _⟩ => ⟨S2x150000, .i32⟩
  | .hbm, ⟨3, _⟩ => ⟨S2x100000, .i32⟩
  | .hbm, ⟨4, _⟩ => ⟨S2x100000, .i32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S512x1024, .f32⟩
  | .hbm, ⟨15, _⟩ => ⟨S512, .f32⟩
  | .hbm, ⟨16, _⟩ => ⟨S512x1024, .f32⟩
  | .hbm, ⟨17, _⟩ => ⟨S512, .f32⟩
  | .hbm, ⟨18, _⟩ => ⟨S1x150000, .i32⟩
  | .hbm, ⟨19, _⟩ => ⟨S150000, .i32⟩
  | .hbm, ⟨20, _⟩ => ⟨S1x150000, .i32⟩
  | .hbm, ⟨21, _⟩ => ⟨S150000, .i32⟩
  | .hbm, ⟨22, _⟩ => ⟨S1x100000, .i32⟩
  | .hbm, ⟨23, _⟩ => ⟨S100000, .i32⟩
  | .hbm, ⟨24, _⟩ => ⟨S1x100000, .i32⟩
  | .hbm, ⟨25, _⟩ => ⟨S100000, .i32⟩
  | .hbm, ⟨26, _⟩ => ⟨S1x100000, .i32⟩
  | .hbm, ⟨27, _⟩ => ⟨S100000, .i32⟩
  | .hbm, ⟨28, _⟩ => ⟨S1x100000, .i32⟩
  | .hbm, ⟨29, _⟩ => ⟨S100000, .i32⟩
  | .hbm, ⟨30, _⟩ => ⟨S_, .i32⟩
  | .hbm, ⟨31, _⟩ => ⟨S150000, .i32⟩
  | .hbm, ⟨32, _⟩ => ⟨S150000, .i1⟩
  | .hbm, ⟨33, _⟩ => ⟨S_, .i32⟩
  | .hbm, ⟨34, _⟩ => ⟨S150000, .i32⟩
  | .hbm, ⟨35, _⟩ => ⟨S150000, .i32⟩
  | .hbm, ⟨36, _⟩ => ⟨S150000, .i32⟩
  | .hbm, ⟨37, _⟩ => ⟨S150000x1, .i32⟩
  | .hbm, ⟨38, _⟩ => ⟨S150000x512, .f32⟩
  | .hbm, ⟨39, _⟩ => ⟨S_, .f32⟩
  | .hbm, ⟨40, _⟩ => ⟨S50000x512, .f32⟩
  | .hbm, ⟨41, _⟩ => ⟨S150000x1, .i32⟩
  | .hbm, ⟨42, _⟩ => ⟨S50000x512, .f32⟩
  | .hbm, ⟨43, _⟩ => ⟨S_, .f32⟩
  | .hbm, ⟨44, _⟩ => ⟨S150000, .f32⟩
  | .hbm, ⟨45, _⟩ => ⟨S_, .f32⟩
  | .hbm, ⟨46, _⟩ => ⟨S50000, .f32⟩
  | .hbm, ⟨47, _⟩ => ⟨S150000x1, .i32⟩
  | .hbm, ⟨48, _⟩ => ⟨S50000, .f32⟩
  | .hbm, ⟨49, _⟩ => ⟨S50000x1, .f32⟩
  | .hbm, ⟨50, _⟩ => ⟨S_, .i32⟩
  | .hbm, ⟨51, _⟩ => ⟨S100000, .i32⟩
  | .hbm, ⟨52, _⟩ => ⟨S100000, .i1⟩
  | .hbm, ⟨53, _⟩ => ⟨S_, .i32⟩
  | .hbm, ⟨54, _⟩ => ⟨S100000, .i32⟩
  | .hbm, ⟨55, _⟩ => ⟨S100000, .i32⟩
  | .hbm, ⟨56, _⟩ => ⟨S100000, .i32⟩
  | .hbm, ⟨57, _⟩ => ⟨S100000x1, .i32⟩
  | .hbm, ⟨58, _⟩ => ⟨S100000x512, .f32⟩
  | .hbm, ⟨59, _⟩ => ⟨S_, .f32⟩
  | .hbm, ⟨60, _⟩ => ⟨S5000x512, .f32⟩
  | .hbm, ⟨61, _⟩ => ⟨S100000x1, .i32⟩
  | .hbm, ⟨62, _⟩ => ⟨S5000x512, .f32⟩
  | .hbm, ⟨63, _⟩ => ⟨S_, .f32⟩
  | .hbm, ⟨64, _⟩ => ⟨S100000, .f32⟩
  | .hbm, ⟨65, _⟩ => ⟨S_, .f32⟩
  | .hbm, ⟨66, _⟩ => ⟨S5000, .f32⟩
  | .hbm, ⟨67, _⟩ => ⟨S100000x1, .i32⟩
  | .hbm, ⟨68, _⟩ => ⟨S5000, .f32⟩
  | .hbm, ⟨69, _⟩ => ⟨S5000x1, .f32⟩
  | .hbm, ⟨70, _⟩ => ⟨S_, .i32⟩
  | .hbm, ⟨71, _⟩ => ⟨S100000, .i32⟩
  | .hbm, ⟨72, _⟩ => ⟨S100000, .i1⟩
  | .hbm, ⟨73, _⟩ => ⟨S_, .i32⟩
  | .hbm, ⟨74, _⟩ => ⟨S100000, .i32⟩
  | .hbm, ⟨75, _⟩ => ⟨S100000, .i32⟩
  | .hbm, ⟨76, _⟩ => ⟨S100000, .i32⟩
  | .hbm, ⟨77, _⟩ => ⟨S100000x1, .i32⟩
  | .hbm, ⟨78, _⟩ => ⟨S100000x512, .f32⟩
  | .hbm, ⟨79, _⟩ => ⟨S_, .f32⟩
  | .hbm, ⟨80, _⟩ => ⟨S50000x512, .f32⟩
  | .hbm, ⟨81, _⟩ => ⟨S100000x1, .i32⟩
  | .hbm, ⟨82, _⟩ => ⟨S50000x512, .f32⟩
  | .hbm, ⟨83, _⟩ => ⟨S_, .f32⟩
  | .hbm, ⟨84, _⟩ => ⟨S100000, .f32⟩
  | .hbm, ⟨85, _⟩ => ⟨S_, .f32⟩
  | .hbm, ⟨86, _⟩ => ⟨S50000, .f32⟩
  | .hbm, ⟨87, _⟩ => ⟨S100000x1, .i32⟩
  | .hbm, ⟨88, _⟩ => ⟨S50000, .f32⟩
  | .hbm, ⟨89, _⟩ => ⟨S50000x1, .f32⟩
  | .hbm, ⟨90, _⟩ => ⟨S512x512, .f32⟩
  | .hbm, ⟨91, _⟩ => ⟨S512x512, .bf16⟩
  | .hbm, ⟨92, _⟩ => ⟨S512x512, .f32⟩
  | .hbm, ⟨93, _⟩ => ⟨S512x512, .bf16⟩
  | .hbm, ⟨94, _⟩ => ⟨S512x512, .f32⟩
  | .hbm, ⟨95, _⟩ => ⟨S512x512, .bf16⟩
  | .hbm, ⟨96, _⟩ => ⟨S512x512, .f32⟩
  | .hbm, ⟨97, _⟩ => ⟨S512x512, .bf16⟩
  | .hbm, ⟨98, _⟩ => ⟨S512x512, .f32⟩
  | .hbm, ⟨99, _⟩ => ⟨S512x512, .bf16⟩
  | .hbm, ⟨100, _⟩ => ⟨S512x512, .f32⟩
  | .hbm, ⟨101, _⟩ => ⟨S512x512, .bf16⟩
  | .hbm, ⟨102, _⟩ => ⟨S1024x512, .f32⟩
  | .hbm, ⟨103, _⟩ => ⟨S512x512, .f32⟩
  | .hbm, ⟨104, _⟩ => ⟨S512x512, .bf16⟩
  | .hbm, ⟨105, _⟩ => ⟨S512x512, .f32⟩
  | .hbm, ⟨106, _⟩ => ⟨S512x512, .bf16⟩
  | .hbm, ⟨107, _⟩ => ⟨S1024x512, .f32⟩
  | .hbm, ⟨108, _⟩ => ⟨S512x512, .f32⟩
  | .hbm, ⟨109, _⟩ => ⟨S512x512, .bf16⟩
  | .hbm, ⟨110, _⟩ => ⟨S512x512, .f32⟩
  | .hbm, ⟨111, _⟩ => ⟨S512x512, .bf16⟩
  | .hbm, ⟨112, _⟩ => ⟨S1x512, .f32⟩
  | .hbm, ⟨113, _⟩ => ⟨S1x512, .f32⟩
  | .hbm, ⟨114, _⟩ => ⟨S1x512, .f32⟩
  | .hbm, ⟨115, _⟩ => ⟨S1x512, .f32⟩
  | .hbm, ⟨116, _⟩ => ⟨S1x512, .f32⟩
  | .hbm, ⟨117, _⟩ => ⟨S50000x512, .f32⟩
  | .hbm, ⟨118, _⟩ => ⟨S5000x512, .f32⟩
  | .local _ .vmem, ⟨0, _⟩ => ⟨S1000x512, .f32⟩
  | .local _ .vmem, ⟨1, _⟩ => ⟨S1000x512, .f32⟩
  | .local _ .vmem, ⟨2, _⟩ => ⟨S1000x1, .f32⟩
  | .local _ .vmem, ⟨3, _⟩ => ⟨S1000x1, .f32⟩
  | .local _ .vmem, ⟨4, _⟩ => ⟨S1000x512, .f32⟩
  | .local _ .vmem, ⟨5, _⟩ => ⟨S1000x512, .f32⟩
  | .local _ .vmem, ⟨6, _⟩ => ⟨S1000x1, .f32⟩
  | .local _ .vmem, ⟨7, _⟩ => ⟨S1000x1, .f32⟩
  | .local _ .vmem, ⟨8, _⟩ => ⟨S1000x512, .f32⟩
  | .local _ .vmem, ⟨9, _⟩ => ⟨S1000x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S512x512, .bf16⟩
  | .local _ .vmem, ⟨14, _⟩ => ⟨S512x512, .bf16⟩
  | .local _ .vmem, ⟨15, _⟩ => ⟨S1x512, .f32⟩
  | .local _ .vmem, ⟨16, _⟩ => ⟨S512x512, .bf16⟩
  | .local _ .vmem, ⟨17, _⟩ => ⟨S512x512, .bf16⟩
  | .local _ .vmem, ⟨18, _⟩ => ⟨S1x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S1000x1, .f32⟩
  | .local _ .vmem, ⟨24, _⟩ => ⟨S1000x1, .f32⟩
  | .local _ .vmem, ⟨25, _⟩ => ⟨S1000x512, .f32⟩
  | .local _ .vmem, ⟨26, _⟩ => ⟨S1000x512, .f32⟩
  | .local _ .vmem, ⟨27, _⟩ => ⟨S512x512, .bf16⟩
  | .local _ .vmem, ⟨28, _⟩ => ⟨S512x512, .bf16⟩
  | .local _ .vmem, ⟨29, _⟩ => ⟨S1x512, .f32⟩
  | .local _ .vmem, ⟨30, _⟩ => ⟨S512x512, .bf16⟩
  | .local _ .vmem, ⟨31, _⟩ => ⟨S512x512, .bf16⟩
  | .local _ .vmem, ⟨32, _⟩ => ⟨S1x512, .f32⟩
  | .local _ .vmem, ⟨33, _⟩ => ⟨S1000x512, .f32⟩
  | .local _ .vmem, ⟨34, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_1 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_3 : Ref sig .tc := ⟨.hbm, 50, rfl⟩
abbrev main_v27 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_8 : Ref sig .tc := ⟨.hbm, 70, rfl⟩
abbrev main_v42 : Ref sig .tc := ⟨.hbm, 71, rfl⟩
abbrev main_v43 : Ref sig .tc := ⟨.hbm, 72, rfl⟩
abbrev main_c_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg9_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem9_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1000x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S150000 : S_.BroadcastsInDim S150000 (![] : Fin 0 → Fin S150000.rank)
  bcast_S150000_S150000x1_0 : S150000.BroadcastsInDim S150000x1 (![0] : Fin 1 → Fin S150000x1.rank)
  bcast_S_S50000x512 : S_.BroadcastsInDim S50000x512 (![] : Fin 0 → Fin S50000x512.rank)
  bcast_S_S50000 : S_.BroadcastsInDim S50000 (![] : Fin 0 → Fin S50000.rank)
  shapeCasts_S50000_S50000x1 : S50000.ShapeCasts S50000x1
  bcast_S_S100000 : S_.BroadcastsInDim S100000 (![] : Fin 0 → Fin S100000.rank)
  bcast_S100000_S100000x1_0 : S100000.BroadcastsInDim S100000x1 (![0] : Fin 1 → Fin S100000x1.rank)
  bcast_S_S5000x512 : S_.BroadcastsInDim S5000x512 (![] : Fin 0 → Fin S5000x512.rank)
  bcast_S_S5000 : S_.BroadcastsInDim S5000 (![] : Fin 0 → Fin S5000.rank)
  shapeCasts_S5000_S5000x1 : S5000.ShapeCasts S5000x1
  transposes_S512x512_S512x512_1_0 : S512x512.Transposes [1, 0] S512x512
  bitsLt_bf16_f32 : FTy.bits .bf16 < FTy.bits .f32
  transposes_S512x1024_S1024x512_1_0 : S512x1024.Transposes [1, 0] S1024x512
  slices_S1024x512_S512x512_0_0 : S1024x512.Slices ![0, 0] S512x512
  slices_S1024x512_S512x512_512_0 : S1024x512.Slices ![512, 0] S512x512
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  reduces_S1000x512_S1000 : S1000x512.Reduces [1] S1000
  shapeCasts_S1000_S1000x1 : S1000.ShapeCasts S1000x1
  gather_S50000x512_S150000x1_S150000x512_1_0_n_n_0_1_1512_wf : GatherDims.WF S50000x512 S150000x1 S150000x512 [1] [0] [] [0] [] 1 ![1, 512]
  scatter_S50000x512_S150000x1_S150000x512_1_0_0_1_wf : ScatterDims.WF S50000x512 S150000x1 S150000x512 [1] [0] [0] 1
  scatter_S50000_S150000x1_S150000_n_0_0_1_wf : ScatterDims.WF S50000 S150000x1 S150000 [] [0] [0] 1
  gather_S50000x512_S100000x1_S100000x512_1_0_n_n_0_1_1512_wf : GatherDims.WF S50000x512 S100000x1 S100000x512 [1] [0] [] [0] [] 1 ![1, 512]
  scatter_S5000x512_S100000x1_S100000x512_1_0_0_1_wf : ScatterDims.WF S5000x512 S100000x1 S100000x512 [1] [0] [0] 1
  scatter_S5000_S100000x1_S100000_n_0_0_1_wf : ScatterDims.WF S5000 S100000x1 S100000 [] [0] [0] 1
  gather_S5000x512_S100000x1_S100000x512_1_0_n_n_0_1_1512_wf : GatherDims.WF S5000x512 S100000x1 S100000x512 [1] [0] [] [0] [] 1 ![1, 512]
  scatter_S50000x512_S100000x1_S100000x512_1_0_0_1_wf : ScatterDims.WF S50000x512 S100000x1 S100000x512 [1] [0] [0] 1
  scatter_S50000_S100000x1_S100000_n_0_0_1_wf : ScatterDims.WF S50000 S100000x1 S100000 [] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S50000x1.size a
  hwx0_1 : ∀ i : grid0.Coords, EltTy.bits .f32 = 32 ∨ (Rect.block (s := S50000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S50000x512.size a
  hwx0_2 : ∀ i : grid0.Coords, EltTy.bits .f32 = 32 ∨ (Rect.block (s := S50000x512) S1000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S50000x1.size a
  hwx0_3 : ∀ i : grid0.Coords, EltTy.bits .f32 = 32 ∨ (Rect.block (s := S50000x1) S1000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x512.size a ≤ S50000x512.size a
  hwx0_4 : ∀ i : grid0.Coords, EltTy.bits .f32 = 32 ∨ (Rect.block (s := S50000x512) S1000x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .bf16 = 32 ∨ (Rect.block (s := S512x512) S512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1000x512.size a ≤ S50000x512.size a
  hwx0_14 : ∀ i : grid0.Coords, EltTy.bits .f32 = 32 ∨ (Rect.block (s := S50000x512) S1000x512.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S5000x512.size a
  hwx1_0 : ∀ i : grid1.Coords, EltTy.bits .f32 = 32 ∨ (Rect.block (s := S5000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S5000x1.size a
  hwx1_1 : ∀ i : grid1.Coords, EltTy.bits .f32 = 32 ∨ (Rect.block (s := S5000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S5000x512.size a
  hwx1_2 : ∀ i : grid1.Coords, EltTy.bits .f32 = 32 ∨ (Rect.block (s := S5000x512) S1000x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .bf16 = 32 ∨ (Rect.block (s := S512x512) S512x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S512x512.size a
  hwx1_7 : ∀ i : grid1.Coords, EltTy.bits .bf16 = 32 ∨ (Rect.block (s := S512x512) S512x512.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x512.size a ≤ S5000x512.size a
  hwx1_9 : ∀ i : grid1.Coords, EltTy.bits .f32 = 32 ∨ (Rect.block (s := S5000x512) S1000x512.size (cc1_transform_9 i) (hinb1_9 i)).WholeWords (EltTy.packing .f32)

variable [Facts₀]

def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf
def gather_S50000x512_S100000x1_S100000x512_1_0_n_n_0_1_1512 : GatherDims S50000x512 S100000x1 S100000x512 where
  offsetDims := [1]
  collapsedSliceDims := [0]
  operandBatchingDims := []
  startIndicesBatchingDims := []
  startIndexMap := [0]
  indexVectorDim := 1
  sliceSizes := ![1, 512]
  wf := gather_S50000x512_S100000x1_S100000x512_1_0_n_n_0_1_1512_wf
def scatter_S5000x512_S100000x1_S100000x512_1_0_0_1 : ScatterDims S5000x512 S100000x1 S100000x512 where
  updateWindowDims := [1]
  insertedWindowDims := [0]
  scatterDimsToOperandDims := [0]
  indexVectorDim := 1
  wf := scatter_S5000x512_S100000x1_S100000x512_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def gather_S5000x512_S100000x1_S100000x512_1_0_n_n_0_1_1512 : GatherDims S5000x512 S100000x1 S100000x512 where
  offsetDims := [1]
  collapsedSliceDims := [0]
  operandBatchingDims := []
  startIndicesBatchingDims := []
  startIndexMap := [0]
  indexVectorDim := 1
  sliceSizes := ![1, 512]
  wf := gather_S5000x512_S100000x1_S100000x512_1_0_n_n_0_1_1512_wf
def scatter_S50000x512_S100000x1_S100000x512_1_0_0_1 : ScatterDims S50000x512 S100000x1 S100000x512 where
  updateWindowDims := [1]
  insertedWindowDims := [0]
  scatterDimsToOperandDims := [0]
  indexVectorDim := 1
  wf := scatter_S50000x512_S100000x1_S100000x512_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v21) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v56) S1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1000x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v58) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v60) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v79) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v66) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v68) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v80) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v71) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v73) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v82) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v84) S1000x512.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v36) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v62) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v81) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v76) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v78) S512x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v83) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v85) S1000x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x512 : Shape := ⟨2, ![50000, 512]⟩
abbrev S5000x512 : Shape := ⟨2, ![5000, 512]⟩
abbrev S2x150000 : Shape := ⟨2, ![2, 150000]⟩
abbrev S2x100000 : Shape := ⟨2, ![2, 100000]⟩
abbrev S512x512 : Shape := ⟨2, ![512, 512]⟩
abbrev S512 : Shape := ⟨1, ![512]⟩
abbrev S512x1024 : Shape := ⟨2, ![512, 1024]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S150000x512 : Shape := ⟨2, ![150000, 512]⟩
abbrev S50000 : Shape := ⟨1, ![50000]⟩
abbrev S50000x1 : Shape := ⟨2, ![50000, 1]⟩
abbrev S1x512 : Shape := ⟨2, ![1, 512]⟩
abbrev S1x100000 : Shape := ⟨2, ![1, 100000]⟩
abbrev S100000 : Shape := ⟨1, ![100000]⟩
abbrev S100000x1 : Shape := ⟨2, ![100000, 1]⟩
abbrev S100000x512 : Shape := ⟨2, ![100000, 512]⟩
abbrev S5000 : Shape := ⟨1, ![5000]⟩
abbrev S5000x1 : Shape := ⟨2, ![5000, 1]⟩
abbrev S50000x1024 : Shape := ⟨2, ![50000, 1024]⟩
abbrev S1024x512 : Shape := ⟨2, ![1024, 512]⟩
abbrev S5000x1024 : Shape := ⟨2, ![5000, 1024]⟩

abbrev nBuf : Space → Nat
  | .hbm => 182
  | .vmem => 0
  | .smem => 0
  | _ => 0

abbrev hbmTy0_0 (i : Nat) : BufTy := match i % 128 with
  | 0 => ⟨S50000x512, .f32⟩
  | 1 => ⟨S5000x512, .f32⟩
  | 2 => ⟨S2x150000, .i32⟩
  | 3 => ⟨S2x100000, .i32⟩
  | 4 => ⟨S2x100000, .i32⟩
  | 5 => ⟨S512x512, .f32⟩
  | 6 => ⟨S512x512, .f32⟩
  | 7 => ⟨S512, .f32⟩
  | 8 => ⟨S512x512, .f32⟩
  | 9 => ⟨S512x512, .f32⟩
  | 10 => ⟨S512, .f32⟩
  | 11 => ⟨S512x512, .f32⟩
  | 12 => ⟨S512x512, .f32⟩
  | 13 => ⟨S512, .f32⟩
  | 14 => ⟨S512x1024, .f32⟩
  | 15 => ⟨S512, .f32⟩
  | 16 => ⟨S512x1024, .f32⟩
  | 17 => ⟨S512, .f32⟩
  | 18 => ⟨S1x150000, .i32⟩
  | 19 => ⟨S150000, .i32⟩
  | 20 => ⟨S1x150000, .i32⟩
  | 21 => ⟨S150000, .i32⟩
  | 22 => ⟨S_, .i32⟩
  | 23 => ⟨S150000, .i32⟩
  | 24 => ⟨S150000, .i1⟩
  | 25 => ⟨S_, .i32⟩
  | 26 => ⟨S150000, .i32⟩
  | 27 => ⟨S150000, .i32⟩
  | 28 => ⟨S150000, .i32⟩
  | 29 => ⟨S150000x1, .i32⟩
  | 30 => ⟨S150000x512, .f32⟩
  | 31 => ⟨S_, .f32⟩
  | 32 => ⟨S50000x512, .f32⟩
  | 33 => ⟨S150000x1, .i32⟩
  | 34 => ⟨S50000x512, .f32⟩
  | 35 => ⟨S_, .f32⟩
  | 36 => ⟨S150000, .f32⟩
  | 37 => ⟨S_, .f32⟩
  | 38 => ⟨S50000, .f32⟩
  | 39 => ⟨S150000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x512, .f32⟩
  | 46 => ⟨S50000x512, .f32⟩
  | 47 => ⟨S512x512, .f32⟩
  | 48 => ⟨S50000x512, .f32⟩
  | 49 => ⟨S512x512, .f32⟩
  | 50 => ⟨S50000x512, .f32⟩
  | 51 => ⟨S50000x512, .f32⟩
  | 52 => ⟨S1x512, .f32⟩
  | 53 => ⟨S50000x512, .f32⟩
  | 54 => ⟨S50000x512, .f32⟩
  | 55 => ⟨S1x100000, .i32⟩
  | 56 => ⟨S100000, .i32⟩
  | 57 => ⟨S1x100000, .i32⟩
  | 58 => ⟨S100000, .i32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000x512, .f32⟩
  | 68 => ⟨S_, .f32⟩
  | 69 => ⟨S50000x512, .f32⟩
  | 70 => ⟨S100000x1, .i32⟩
  | 71 => ⟨S50000x512, .f32⟩
  | 72 => ⟨S_, .f32⟩
  | 73 => ⟨S100000, .f32⟩
  | 74 => ⟨S_, .f32⟩
  | 75 => ⟨S50000, .f32⟩
  | 76 => ⟨S100000x1, .i32⟩
  | 77 => ⟨S50000, .f32⟩
  | 78 => ⟨S_, .f32⟩
  | 79 => ⟨S50000, .f32⟩
  | 80 => ⟨S50000, .f32⟩
  | 81 => ⟨S50000x1, .f32⟩
  | 82 => ⟨S50000x512, .f32⟩
  | 83 => ⟨S50000x512, .f32⟩
  | 84 => ⟨S512x512, .f32⟩
  | 85 => ⟨S50000x512, .f32⟩
  | 86 => ⟨S512x512, .f32⟩
  | 87 => ⟨S50000x512, .f32⟩
  | 88 => ⟨S50000x512, .f32⟩
  | 89 => ⟨S1x512, .f32⟩
  | 90 => ⟨S50000x512, .f32⟩
  | 91 => ⟨S50000x512, .f32⟩
  | 92 => ⟨S50000x512, .f32⟩
  | 93 => ⟨S1x100000, .i32⟩
  | 94 => ⟨S100000, .i32⟩
  | 95 => ⟨S1x100000, .i32⟩
  | 96 => ⟨S100000, .i32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000x512, .f32⟩
  | 106 => ⟨S_, .f32⟩
  | 107 => ⟨S5000x512, .f32⟩
  | 108 => ⟨S100000x1, .i32⟩
  | 109 => ⟨S5000x512, .f32⟩
  | 110 => ⟨S_, .f32⟩
  | 111 => ⟨S100000, .f32⟩
  | 112 => ⟨S_, .f32⟩
  | 113 => ⟨S5000, .f32⟩
  | 114 => ⟨S100000x1, .i32⟩
  | 115 => ⟨S5000, .f32⟩
  | 116 => ⟨S_, .f32⟩
  | 117 => ⟨S5000, .f32⟩
  | 118 => ⟨S5000, .f32⟩
  | 119 => ⟨S5000x1, .f32⟩
  | 120 => ⟨S5000x512, .f32⟩
  | 121 => ⟨S5000x512, .f32⟩
  | 122 => ⟨S512x512, .f32⟩
  | 123 => ⟨S5000x512, .f32⟩
  | 124 => ⟨S512x512, .f32⟩
  | 125 => ⟨S5000x512, .f32⟩
  | 126 => ⟨S5000x512, .f32⟩
  | 127 => ⟨S1x512, .f32⟩
  | _ => ⟨S50000x512, .f32⟩

abbrev hbmTy0_1 (i : Nat) : BufTy := match i % 128 with
  | 0 => ⟨S5000x512, .f32⟩
  | 1 => ⟨S5000x512, .f32⟩
  | 2 => ⟨S50000x512, .f32⟩
  | 3 => ⟨S_, .f32⟩
  | 4 => ⟨S50000, .f32⟩
  | 5 => ⟨S50000x1, .f32⟩
  | 6 => ⟨S50000x1, .f32⟩
  | 7 => ⟨S_, .f32⟩
  | 8 => ⟨S50000x1, .f32⟩
  | 9 => ⟨S50000x1, .f32⟩
  | 10 => ⟨S50000x512, .f32⟩
  | 11 => ⟨S50000x512, .f32⟩
  | 12 => ⟨S5000x512, .f32⟩
  | 13 => ⟨S_, .f32⟩
  | 14 => ⟨S5000, .f32⟩
  | 15 => ⟨S5000x1, .f32⟩
  | 16 => ⟨S5000x1, .f32⟩
  | 17 => ⟨S_, .f32⟩
  | 18 => ⟨S5000x1, .f32⟩
  | 19 => ⟨S5000x1, .f32⟩
  | 20 => ⟨S5000x512, .f32⟩
  | 21 => ⟨S5000x512, .f32⟩
  | 22 => ⟨S50000x512, .f32⟩
  | 23 => ⟨S_, .f32⟩
  | 24 => ⟨S50000, .f32⟩
  | 25 => ⟨S50000x1, .f32⟩
  | 26 => ⟨S50000x1, .f32⟩
  | 27 => ⟨S_, .f32⟩
  | 28 => ⟨S50000x1, .f32⟩
  | 29 => ⟨S50000x1, .f32⟩
  | 30 => ⟨S50000x512, .f32⟩
  | 31 => ⟨S50000x512, .f32⟩
  | 32 => ⟨S5000x512, .f32⟩
  | 33 => ⟨S_, .f32⟩
  | 34 => ⟨S5000, .f32⟩
  | 35 => ⟨S5000x1, .f32⟩
  | 36 => ⟨S5000x1, .f32⟩
  | 37 => ⟨S_, .f32⟩
  | 38 => ⟨S5000x1, .f32⟩
  | 39 => ⟨S5000x1, .f32⟩
  | 40 => ⟨S5000x512, .f32⟩
  | 41 => ⟨S5000x512, .f32⟩
  | 42 => ⟨S50000x1024, .f32⟩
  | 43 => ⟨S1024x512, .f32⟩
  | 44 => ⟨S50000x512, .f32⟩
  | 45 => ⟨S1x512, .f32⟩
  | 46 => ⟨S50000x512, .f32⟩
  | 47 => ⟨S50000x512, .f32⟩
  | 48 => ⟨S5000x1024, .f32⟩
  | 49 => ⟨S1024x512, .f32⟩
  | 50 => ⟨S5000x512, .f32⟩
  | 51 => ⟨S1x512, .f32⟩
  | 52 => ⟨S5000x512, .f32⟩
  | 53 => ⟨S5000x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_4 : Ref sig .tc := ⟨.hbm, 59, rfl⟩
abbrev main_v35 : Ref sig .tc := ⟨.hbm, 60, rfl⟩
abbrev main_v36 : Ref sig .tc := ⟨.hbm, 61, rfl⟩
abbrev main_c_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_10 : Ref sig .tc := ⟨.hbm, 97, rfl⟩
abbrev main_v67 : Ref sig .tc := ⟨.hbm, 98, rfl⟩
abbrev main_v68 : Ref sig .tc := ⟨.hbm, 99, rfl⟩
abbrev main_c_11 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_12 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_13 : Ref sig .tc := ⟨.hbm, 110, rfl⟩
abbrev main_v77 : Ref sig .tc := ⟨.hbm, 111, rfl⟩
abbrev main_cst_14 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_15 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_16 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_17 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_18 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_19 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_20 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_21 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_22 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_23 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩

abbrev nD : Nat := 1
abbrev τ : Topo := Topo.v7x

variable {F : FTy → Type} [FloatOps F]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  transposes_S512x512_S512x512_1_0 : S512x512.Transposes [1, 0] S512x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  bcast_S_S5000x512 : S_.BroadcastsInDim S5000x512 (![] : Fin 0 → Fin S5000x512.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x512_0_1 : S5000x1.BroadcastsInDim S5000x512 (![0, 1] : Fin 2 → Fin S5000x512.rank)
  bcast_S1x512_S5000x512_0_1 : S1x512.BroadcastsInDim S5000x512 (![0, 1] : Fin 2 → Fin S5000x512.rank)
  reducesTo_S50000x512_S50000_d1 : S50000x512.ReducesTo [1] S50000
  h_S_ : 0 < S_.numel
  bcast_S_S50000x1 : S_.BroadcastsInDim S50000x1 (![] : Fin 0 → Fin S50000x1.rank)
  reducesTo_S5000x512_S5000_d1 : S5000x512.ReducesTo [1] S5000
  bcast_S_S5000x1 : S_.BroadcastsInDim S5000x1 (![] : Fin 0 → Fin S5000x1.rank)
  concatenates_S50000x512_S50000x512_S50000x1024_d1 : Shape.Concatenates [S50000x512, S50000x512] S50000x1024 1
  transposes_S512x1024_S1024x512_1_0 : S512x1024.Transposes [1, 0] S1024x512
  concatenates_S5000x512_S5000x512_S5000x1024_d1 : Shape.Concatenates [S5000x512, S5000x512] S5000x1024 1
  gather_S50000x512_S150000x1_S150000x512_1_0_n_n_0_1_1512_wf : GatherDims.WF S50000x512 S150000x1 S150000x512 [1] [0] [] [0] [] 1 ![1, 512]
  scatter_S50000x512_S150000x1_S150000x512_1_0_0_1_wf : ScatterDims.WF S50000x512 S150000x1 S150000x512 [1] [0] [0] 1
  scatter_S50000_S150000x1_S150000_n_0_0_1_wf : ScatterDims.WF S50000 S150000x1 S150000 [] [0] [0] 1
  dot_S50000x512_S512x512_S50000x512_1_0_0_1_n_n_wf : DotDims.WF S50000x512 S512x512 S50000x512 [1] [0] [0] [1] [] []
  gather_S5000x512_S100000x1_S100000x512_1_0_n_n_0_1_1512_wf : GatherDims.WF S5000x512 S100000x1 S100000x512 [1] [0] [] [0] [] 1 ![1, 512]
  scatter_S50000x512_S100000x1_S100000x512_1_0_0_1_wf : ScatterDims.WF S50000x512 S100000x1 S100000x512 [1] [0] [0] 1
  scatter_S50000_S100000x1_S100000_n_0_0_1_wf : ScatterDims.WF S50000 S100000x1 S100000 [] [0] [0] 1
  gather_S50000x512_S100000x1_S100000x512_1_0_n_n_0_1_1512_wf : GatherDims.WF S50000x512 S100000x1 S100000x512 [1] [0] [] [0] [] 1 ![1, 512]
  scatter_S5000x512_S100000x1_S100000x512_1_0_0_1_wf : ScatterDims.WF S5000x512 S100000x1 S100000x512 [1] [0] [0] 1
  scatter_S5000_S100000x1_S100000_n_0_0_1_wf : ScatterDims.WF S5000 S100000x1 S100000 [] [0] [0] 1
  dot_S5000x512_S512x512_S5000x512_1_0_0_1_n_n_wf : DotDims.WF S5000x512 S512x512 S5000x512 [1] [0] [0] [1] [] []
  dot_S50000x1024_S1024x512_S50000x512_1_0_0_1_n_n_wf : DotDims.WF S50000x1024 S1024x512 S50000x512 [1] [0] [0] [1] [] []
  dot_S5000x1024_S1024x512_S5000x512_1_0_0_1_n_n_wf : DotDims.WF S5000x1024 S1024x512 S5000x512 [1] [0] [0] [1] [] []

variable [Facts₀]

def gather_S50000x512_S150000x1_S150000x512_1_0_n_n_0_1_1512 : GatherDims S50000x512 S150000x1 S150000x512 where
  offsetDims := [1]
  collapsedSliceDims := [0]
  operandBatchingDims := []
  startIndicesBatchingDims := []
  startIndexMap := [0]
  indexVectorDim := 1
  sliceSizes := ![1, 512]
  wf := gather_S50000x512_S150000x1_S150000x512_1_0_n_n_0_1_1512_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S5000x512_S100000x1_S100000x512_1_0_n_n_0_1_1512 : GatherDims S5000x512 S100000x1 S100000x512 where
  offsetDims := [1]
  collapsedSliceDims := [0]
  operandBatchingDims := []
  startIndicesBatchingDims := []
  startIndexMap := [0]
  indexVectorDim := 1
  sliceSizes := ![1, 512]
  wf := gather_S5000x512_S100000x1_S100000x512_1_0_n_n_0_1_1512_wf
def scatter_S50000x512_S100000x1_S100000x512_1_0_0_1 : ScatterDims S50000x512 S100000x1 S100000x512 where
  updateWindowDims := [1]
  insertedWindowDims := [0]
  scatterDimsToOperandDims := [0]
  indexVectorDim := 1
  wf := scatter_S50000x512_S100000x1_S100000x512_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def gather_S50000x512_S100000x1_S100000x512_1_0_n_n_0_1_1512 : GatherDims S50000x512 S100000x1 S100000x512 where
  offsetDims := [1]
  collapsedSliceDims := [0]
  operandBatchingDims := []
  startIndicesBatchingDims := []
  startIndexMap := [0]
  indexVectorDim := 1
  sliceSizes := ![1, 512]
  wf := gather_S50000x512_S100000x1_S100000x512_1_0_n_n_0_1_1512_wf
def scatter_S5000x512_S100000x1_S100000x512_1_0_0_1 : ScatterDims S5000x512 S100000x1 S100000x512 where
  updateWindowDims := [1]
  insertedWindowDims := [0]
  scatterDimsToOperandDims := [0]
  indexVectorDim := 1
  wf := scatter_S5000x512_S100000x1_S100000x512_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def dot_S5000x512_S512x512_S5000x512_1_0_0_1_n_n : DotDims S5000x512 S512x512 S5000x512 where
  lhsContracting := [1]
  rhsContracting := [0]
  lhsNonContracting := [0]
  rhsNonContracting := [1]
  lhsBatch := []
  rhsBatch := []
  wf := dot_S5000x512_S512x512_S5000x512_1_0_0_1_n_n_wf
def dot_S50000x1024_S1024x512_S50000x512_1_0_0_1_n_n : DotDims S50000x1024 S1024x512 S50000x512 where
  lhsContracting := [1]
  rhsContracting := [0]
  lhsNonContracting := [0]
  rhsNonContracting := [1]
  lhsBatch := []
  rhsBatch := []
  wf := dot_S50000x1024_S1024x512_S50000x512_1_0_0_1_n_n_wf
def dot_S5000x1024_S1024x512_S5000x512_1_0_0_1_n_n : DotDims S5000x1024 S1024x512 S5000x512 where
  lhsContracting := [1]
  rhsContracting := [0]
  lhsNonContracting := [0]
  rhsNonContracting := [1]
  lhsBatch := []
  rhsBatch := []
  wf := dot_S5000x1024_S1024x512_S5000x512_1_0_0_1_n_n_wf

class Facts : Prop extends Facts₀ where

variable [Facts]
-- ==== Proof.KRun.lean ====
/-
  The idealized kernel's run with EVERY unscoped buffer named: every weakly fair execution of @main ends, nothing
  faulting, with each buffer of the TensorCore holding what the fold through @main's segments leaves in it (the host
  stretch, then the paper region's write-backs, then the dataset region's).  The two results are then read off that fold:
  the paper embedding is the paper region's output array after its last write-back, which the dataset region does not
  touch; the dataset embedding is the dataset region's output array after its last write-back.
-/
import proofs.«137761_j84894323573132_2_alg».proof.Proof.FrameKI

-- membership in a rectangle of production extents (`View.cover_of_tiled`): the elaborator's structural look
-- recurses once per coordinate of the long axes
set_option maxRecDepth 16384

noncomputable section

namespace Cert.KRun

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The paper embedding's buffer at the end: the paper region's output array after all of its write-backs. -/
theorem W3_main_v84 (c : Dev nD) :
    W3 m ρ c (Proc.devRef .tc main_v84) = (dat0 (V1 m ρ) c).arrAt 14 cfg0.N :=
  (W3_of_ne m ρ c main_v84 (by decide)).trans (W2_arr m ρ c 14)

/-- The dataset embedding's buffer at the end: the dataset region's output array after all of its write-backs. -/
theorem W3_main_v85 (c : Dev nD) :
    W3 m ρ c (Proc.devRef .tc main_v85) = (dat1 (V2 m ρ) c).arrAt 9 cfg1.N :=
  W3_arr m ρ c 9

/-- The run with the two results and the arguments named. -/
theorem run_results : θ_run defs (onTc (τ := τ) (main (F := F))) ⟨m, fun _ => 0, ρ⟩ (fun r => ∀ c : Dev nD,
      r.2.mem ((c.tc : Thread nD τ).loc main_v84) = (dat0 (V1 m ρ) c).arrAt 14 cfg0.N
      ∧ r.2.mem ((c.tc : Thread nD τ).loc main_v85) = (dat1 (V2 m ρ) c).arrAt 9 cfg1.N
      ∧ ∀ b ∈ Pipeline.ucRefs τ sig, r.2.mem (((c : Thread nD τ)).1, b) = W3 m ρ c b) :=
  (θ_run defs _ _).mono (fun r h c =>
    ⟨(h c _ (mem_uc main_v84 (by decide))).trans (W3_main_v84 m ρ c),
     (h c _ (mem_uc main_v85 (by decide))).trans (W3_main_v85 m ρ c),
     h c⟩) (run_all m ρ)

end Cert.KRun

end
-- ==== Proof.Spec.lean ====
/-
  The mathematics both programs compute, one destination node (one row) at a time.

  A node's encoding is a sum of graph convolutions, one per edge type that ends at the node's type:
  the mean of the incoming messages (their sum divided by the clamped count) times the transposed
  neighbour weights, plus the node's own features times the transposed self weights, plus a bias.
  The encoding and the raw features are each divided by their Euclidean norm (clamped from below),
  and the decoder multiplies the concatenation of the two by a transposed [512, 1024] matrix and adds
  a bias.  The kernel forms the decoder's product as two half products over the two 512-wide halves;
  the reference forms one product over the concatenated 1024-wide row.  The kernel adds the six terms
  of a paper node's encoding left to right; the reference adds the two convolutions.  Both pairs are
  equal on the extended reals because addition there is associative and commutative and a sum over
  1024 indices splits into the sums over its two halves: no finiteness is needed.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The count's clamp, the float 1.0. -/
abbrev one : EReal := Ideal.ofBits .f32 0x3F800000#32
/-- The norm's clamp, the float nearest 1e-12. -/
abbrev tiny : EReal := Ideal.ofBits .f32 0x2B8CBCCC#32

/-- Row `r` of an [n, 512] array. -/
def rowOf {n : Nat} (a : (⟨2, ![n, 512]⟩ : Shape).Idx → EReal) (r : Fin n) : Fin 512 → EReal := fun k => a (ix2 r k)
/-- A [512, 512] weight array as a function of (output feature, input feature). -/
def mat (W : (⟨2, ![512, 512]⟩ : Shape).Idx → EReal) : Fin 512 → Fin 512 → EReal := fun j k => W (ix2 j k)
/-- A [512, 1024] decoder weight array as a function of (output feature, input feature). -/
def matD (W : (⟨2, ![512, 1024]⟩ : Shape).Idx → EReal) : Fin 512 → Fin 1024 → EReal := fun j k => W (ix2 j k)
/-- A [512] bias array as a function of the feature. -/
def vec (b : (⟨1, ![512]⟩ : Shape).Idx → EReal) : Fin 512 → EReal := fun j => b (ix1 j)

/-- The mean of the messages into a node: their sum over the count clamped to at least one. -/
def mean (s : Fin 512 → EReal) (cnt : EReal) : Fin 512 → EReal := fun k => Ideal.div (s k) (max cnt one)
/-- A row times the transpose of a weight matrix: feature `j` is `∑ k, v k * W j k`. -/
def lin (v : Fin 512 → EReal) (W : Fin 512 → Fin 512 → EReal) : Fin 512 → EReal := fun j => ∑ k : Fin 512, v k * W j k
/-- A row over its Euclidean norm, the norm clamped from below. -/
def l2n (v : Fin 512 → EReal) : Fin 512 → EReal :=
  fun k => Ideal.div (v k) (max (Ideal.sqrt (∑ k' : Fin 512, v k' * v k')) tiny)
/-- One edge type's convolution at a node. -/
def conv (s : Fin 512 → EReal) (cnt : EReal) (x : Fin 512 → EReal) (Wl Wr : Fin 512 → Fin 512 → EReal)
    (b : Fin 512 → EReal) : Fin 512 → EReal :=
  fun j => lin (mean s cnt) Wr j + lin x Wl j + b j

/-- A paper node's encoding as the kernel adds it: six terms, left to right. -/
def encSeq (spp : Fin 512 → EReal) (cpp : EReal) (sdp : Fin 512 → EReal) (cdp : EReal) (x : Fin 512 → EReal)
    (Wlpp Wrpp : Fin 512 → Fin 512 → EReal) (bpp : Fin 512 → EReal) (Wldp Wrdp : Fin 512 → Fin 512 → EReal)
    (bdp : Fin 512 → EReal) : Fin 512 → EReal :=
  fun j => lin (mean spp cpp) Wrpp j + lin x Wlpp j + bpp j + lin (mean sdp cdp) Wrdp j + lin x Wldp j + bdp j
/-- A paper node's encoding as the reference adds it: the sum of its two convolutions. -/
def encPair (spp : Fin 512 → EReal) (cpp : EReal) (sdp : Fin 512 → EReal) (cdp : EReal) (x : Fin 512 → EReal)
    (Wlpp Wrpp : Fin 512 → Fin 512 → EReal) (bpp : Fin 512 → EReal) (Wldp Wrdp : Fin 512 → Fin 512 → EReal)
    (bdp : Fin 512 → EReal) : Fin 512 → EReal :=
  fun j => conv spp cpp x Wlpp Wrpp bpp j + conv sdp cdp x Wldp Wrdp bdp j

theorem encPair_eq_encSeq (spp : Fin 512 → EReal) (cpp : EReal) (sdp : Fin 512 → EReal) (cdp : EReal)
    (x : Fin 512 → EReal) (Wlpp Wrpp : Fin 512 → Fin 512 → EReal) (bpp : Fin 512 → EReal)
    (Wldp Wrdp : Fin 512 → Fin 512 → EReal) (bdp : Fin 512 → EReal) :
    encPair spp cpp sdp cdp x Wlpp Wrpp bpp Wldp Wrdp bdp = encSeq spp cpp sdp cdp x Wlpp Wrpp bpp Wldp Wrdp bdp := by
  funext j
  simp only [encPair, encSeq, conv, add_assoc]

/-- The concatenation of two 512-wide rows. -/
def cat (u v : Fin 512 → EReal) : Fin 1024 → EReal :=
  fun k => if h : k.val < 512 then u ⟨k.val, h⟩ else v ⟨k.val - 512, by have := k.isLt; omega⟩

/-- The left half of the decoder's input features. -/
abbrev lo (k : Fin 512) : Fin 1024 := ⟨k.val, by have := k.isLt; omega⟩
/-- The right half of the decoder's input features. -/
abbrev hi (k : Fin 512) : Fin 1024 := ⟨512 + k.val, by have := k.isLt; omega⟩

/-- A sum over the 1024 features of a concatenated row splits into the sums over its halves. -/
theorem sum_cat (u v : Fin 512 → EReal) (w : Fin 1024 → EReal) :
    ∑ k : Fin 1024, cat u v k * w k = ∑ k : Fin 512, u k * w (lo k) + ∑ k : Fin 512, v k * w (hi k) := by
  have h := Fin.sum_univ_add (M := EReal) (a := 512) (b := 512) (fun k : Fin (512 + 512) => cat u v k * w k)
  refine h.trans ?_
  congr 1

/-- Two products, one per half of the decoder's input, and the bias. -/
def decTwo (e xn : Fin 512 → EReal) (A B : Fin 512 → Fin 512 → EReal) (bd : Fin 512 → EReal) : Fin 512 → EReal :=
  fun j => ∑ k : Fin 512, e k * A j k + ∑ k : Fin 512, xn k * B j k + bd j
/-- The decoder as the kernel forms it: the two products against the two halves of the decoder's matrix. -/
def decSplit (e xn : Fin 512 → EReal) (Wd : Fin 512 → Fin 1024 → EReal) (bd : Fin 512 → EReal) : Fin 512 → EReal :=
  decTwo e xn (fun j k => Wd j (lo k)) (fun j k => Wd j (hi k)) bd
/-- The decoder as the reference forms it: one product with the concatenated row and the bias. -/
def decCat (e xn : Fin 512 → EReal) (Wd : Fin 512 → Fin 1024 → EReal) (bd : Fin 512 → EReal) : Fin 512 → EReal :=
  fun j => ∑ k : Fin 1024, cat e xn k * Wd j k + bd j

theorem decCat_eq_decSplit (e xn : Fin 512 → EReal) (Wd : Fin 512 → Fin 1024 → EReal) (bd : Fin 512 → EReal) :
    decCat e xn Wd bd = decSplit e xn Wd bd := by
  funext j
  simp only [decCat, decSplit, decTwo, sum_cat]

/-! ## The two outputs at a node and a feature -/

section Arrays

variable (spp : (⟨2, ![50000, 512]⟩ : Shape).Idx → EReal) (cpp : (⟨1, ![50000]⟩ : Shape).Idx → EReal)
  (sdp : (⟨2, ![50000, 512]⟩ : Shape).Idx → EReal) (cdp : (⟨1, ![50000]⟩ : Shape).Idx → EReal)
  (spd : (⟨2, ![5000, 512]⟩ : Shape).Idx → EReal) (cpd : (⟨1, ![5000]⟩ : Shape).Idx → EReal)
  (xp : (⟨2, ![50000, 512]⟩ : Shape).Idx → EReal) (xd : (⟨2, ![5000, 512]⟩ : Shape).Idx → EReal)
  (Wlpp Wrpp : (⟨2, ![512, 512]⟩ : Shape).Idx → EReal) (bpp : (⟨1, ![512]⟩ : Shape).Idx → EReal)
  (Wlpd Wrpd : (⟨2, ![512, 512]⟩ : Shape).Idx → EReal) (bpd : (⟨1, ![512]⟩ : Shape).Idx → EReal)
  (Wldp Wrdp : (⟨2, ![512, 512]⟩ : Shape).Idx → EReal) (bdp : (⟨1, ![512]⟩ : Shape).Idx → EReal)
  (Wdp : (⟨2, ![512, 1024]⟩ : Shape).Idx → EReal) (bdecp : (⟨1, ![512]⟩ : Shape).Idx → EReal)
  (Wdd : (⟨2, ![512, 1024]⟩ : Shape).Idx → EReal) (bdecd : (⟨1, ![512]⟩ : Shape).Idx → EReal)

/-- The paper embedding at node `r`, feature `j`, in the kernel's arrangement. -/
def paperAt (r : Fin 50000) (j : Fin 512) : EReal :=
  decSplit (l2n (encSeq (rowOf spp r) (cpp (ix1 r)) (rowOf sdp r) (cdp (ix1 r)) (rowOf xp r)
      (mat Wlpp) (mat Wrpp) (vec bpp) (mat Wldp) (mat Wrdp) (vec bdp)))
    (l2n (rowOf xp r)) (matD Wdp) (vec bdecp) j
/-- The paper embedding at node `r`, feature `j`, in the reference's arrangement. -/
def paperAtRef (r : Fin 50000) (j : Fin 512) : EReal :=
  decCat (l2n (encPair (rowOf spp r) (cpp (ix1 r)) (rowOf sdp r) (cdp (ix1 r)) (rowOf xp r)
      (mat Wlpp) (mat Wrpp) (vec bpp) (mat Wldp) (mat Wrdp) (vec bdp)))
    (l2n (rowOf xp r)) (matD Wdp) (vec bdecp) j

theorem paperAtRef_eq (r : Fin 50000) (j : Fin 512) :
    paperAtRef spp cpp sdp cdp xp Wlpp Wrpp bpp Wldp Wrdp bdp Wdp bdecp r j
      = paperAt spp cpp sdp cdp xp Wlpp Wrpp bpp Wldp Wrdp bdp Wdp bdecp r j := by
  unfold paperAtRef paperAt
  rw [decCat_eq_decSplit, encPair_eq_encSeq]

/-- The dataset embedding at node `r`, feature `j`, in the kernel's arrangement. -/
def datasetAt (r : Fin 5000) (j : Fin 512) : EReal :=
  decSplit (l2n (conv (rowOf spd r) (cpd (ix1 r)) (rowOf xd r) (mat Wlpd) (mat Wrpd) (vec bpd)))
    (l2n (rowOf xd r)) (matD Wdd) (vec bdecd) j
/-- The dataset embedding at node `r`, feature `j`, in the reference's arrangement. -/
def datasetAtRef (r : Fin 5000) (j : Fin 512) : EReal :=
  decCat (l2n (conv (rowOf spd r) (cpd (ix1 r)) (rowOf xd r) (mat Wlpd) (mat Wrpd) (vec bpd)))
    (l2n (rowOf xd r)) (matD Wdd) (vec bdecd) j

theorem datasetAtRef_eq (r : Fin 5000) (j : Fin 512) :
    datasetAtRef spd cpd xd Wlpd Wrpd bpd Wdd bdecd r j = datasetAt spd cpd xd Wlpd Wrpd bpd Wdd bdecd r j := by
  unfold datasetAtRef datasetAt
  rw [decCat_eq_decSplit]

/-- The paper embedding as a whole array. -/
def paperArr : (⟨2, ![50000, 512]⟩ : Shape).Idx → EReal :=
  fun i => paperAt spp cpp sdp cdp xp Wlpp Wrpp bpp Wldp Wrdp bdp Wdp bdecp (i 0) (i 1)
/-- The dataset embedding as a whole array. -/
def datasetArr : (⟨2, ![5000, 512]⟩ : Shape).Idx → EReal :=
  fun i => datasetAt spd cpd xd Wlpd Wrpd bpd Wdd bdecd (i 0) (i 1)

end Arrays

end Cert.Spec

end
-- ==== Proof.KBody.lean ====
/-
  One grid point's block of each kernel, read at a row `p` and a feature `q` of the block.

  A block holds 1000 nodes.  Every operation of the body is row-wise: the clamped mean divides a row
  of message sums by that row's count, a matrix product with a resident [512, 512] matrix sums over
  the 512 input features of the row, the Euclidean norm sums the row's squares.  So the stored value at
  (p, q) is the row-level function of `Cert.Spec` of row `p` of each row block, the matrices read
  as (input feature, output feature) — they arrive transposed — and the [1, 512] biases at their one row.
-/
import proofs.«137761_j84894323573132_2_alg».proof.Proof.Gen.KernelIdeal.Skeleton
import proofs.«137761_j84894323573132_2_alg».proof.Proof.Spec
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws

set_option maxRecDepth 16384

noncomputable section

open scoped BigOperators

namespace Cert.KBody

open Cert.KernelIdeal Cert.KernelIdeal.Gen Idealize.ShloMosaic Idealize.ShloMosaic.ValueIdx Cert.Spec

/-- A resident [512, 512] block read as (output feature, input feature): the block is the transposed weight. -/
def matT (x : S512x512.Idx → EReal) : Fin 512 → Fin 512 → EReal := fun j k => x (ix2 k j)

/-- The block product's dimensions: [1000, 512] × [512, 512], contracting the row's 512 features. -/
abbrev MM : DotDims S1000x512 S512x512 S1000x512 := dot_S1000x512_S512x512_S1000x512_1_0_0_1_n_n

theorem mm_lhs0 (i : S1000x512.Idx) (q : MM.contr.Idx) : (MM.lhsIdx i q 0).val = (i 0).val := by
  unfold DotDims.lhsIdx
  rw [dif_neg (show ¬(0 : Fin S1000x512.rank) ∈ MM.lhsBatch by decide), dif_pos (show (0 : Fin S1000x512.rank) ∈ MM.lhsNonContracting by decide)]
  rfl
theorem mm_lhs1 (i : S1000x512.Idx) (q : MM.contr.Idx) : (MM.lhsIdx i q 1).val = (q ⟨0, by decide⟩).val :=
  MM.lhsIdx_val_of_single rfl i q
theorem mm_rhs0 (i : S1000x512.Idx) (q : MM.contr.Idx) : (MM.rhsIdx i q 0).val = (q ⟨0, by decide⟩).val :=
  MM.rhsIdx_val_of_single rfl i q
theorem mm_rhs1 (i : S1000x512.Idx) (q : MM.contr.Idx) : (MM.rhsIdx i q 1).val = (i 1).val := by
  unfold DotDims.rhsIdx
  rw [dif_neg (show ¬(1 : Fin S512x512.rank) ∈ MM.rhsBatch by decide), dif_pos (show (1 : Fin S512x512.rank) ∈ MM.rhsNonContracting by decide)]
  rfl

/-- A block product into a zero accumulator at (p, q): the sum over the row's features. -/
theorem mm_apply {φ₁ φ₂ : FTy} (A : FVec Ideal S1000x512 φ₁) (B : FVec Ideal S512x512 φ₂) (p : Fin 1000) (q : Fin 512) :
    matmul dot_S1000x512_S512x512_S1000x512_1_0_0_1_n_n none A B (constant S1000x512 .f32 0x00000000#32) (ix2 p q)
      = ∑ k : Fin 512, A (ix2 p k) * B (ix2 k q) := by
  refine (Ideal.matmul_constant_zero_apply MM none A B (ix2 p q)).trans ?_
  rw [← Equiv.sum_comp (ValueIdx.contrEquiv1 MM 512 rfl rfl).symm]
  refine Finset.sum_congr rfl fun k _ => ?_
  have hk := ValueIdx.contrEquiv1_symm_val MM 512 rfl rfl k
  have el : MM.lhsIdx (ix2 p q) ((ValueIdx.contrEquiv1 MM 512 rfl rfl).symm k) = ix2 p k := funext fun a => Fin.ext (by
    match a with
    | ⟨0, _⟩ => exact mm_lhs0 _ _
    | ⟨1, _⟩ => exact (mm_lhs1 _ _).trans hk)
  have er : MM.rhsIdx (ix2 p q) ((ValueIdx.contrEquiv1 MM 512 rfl rfl).symm k) = ix2 k q := funext fun a => Fin.ext (by
    match a with
    | ⟨0, _⟩ => exact (mm_rhs0 _ _).trans hk
    | ⟨1, _⟩ => exact mm_rhs1 _ _)
  rw [el, er]

/-- A [1000, 1] column spread over the 512 features: every feature of row `p` reads the column's row `p`. -/
theorem col_apply {α : Type} (v : S1000x1.Idx → α) (p : Fin 1000) (q : Fin 512) :
    broadcastTo S1000x512 v broadcasts_S1000x1_S1000x512 (ix2 p q) = v (ix2 p 0) :=
  broadcastTo_apply v broadcasts_S1000x1_S1000x512 (ix2 p q) (ix2 p 0) (fun a => by
    match a with
    | ⟨0, _⟩ => rfl
    | ⟨1, _⟩ => rfl)

/-- A [1, 512] row spread over the 1000 nodes: every node reads the row. -/
theorem row_apply {α : Type} (v : S1x512.Idx → α) (p : Fin 1000) (q : Fin 512) :
    broadcastTo S1000x512 v broadcasts_S1x512_S1000x512 (ix2 p q) = v (ix2 0 q) :=
  broadcastTo_apply v broadcasts_S1x512_S1000x512 (ix2 p q) (ix2 0 q) (fun a => by
    match a with
    | ⟨0, _⟩ => rfl
    | ⟨1, _⟩ => rfl)

/-- A [1000] vector recast as a [1000, 1] column. -/
theorem keep_apply {α : Type} (v : S1000.Idx → α) (p : Fin 1000) :
    shapeCast S1000x1 v shapeCasts_S1000_S1000x1 (ix2 p 0) = v (ix1 p) :=
  shapeCast_apply v shapeCasts_S1000_S1000x1 (ix2 p 0) (ix1 p) (by
    rw [Shape.rowMajor_val_two, Shape.rowMajor_val_one]
    show p.val = p.val * 1 + 0
    omega)

/-- The sum of a block's row. -/
theorem rowsum_apply (v : FVec Ideal S1000x512 .f32) (hφ : FKind.Formats FTy.f32)
    (hacc : (0x00000000#32 : BitVec 32) = 0x00000000#32) (p : Fin 1000) :
    multiReduction .add [1] S1000 v 0x00000000#32 reduces_S1000x512_S1000 hφ hacc (ix1 p) = ∑ k : Fin 512, v (ix2 p k) := by
  refine (Ideal.multiReduction_add_single v 0x00000000#32 reduces_S1000x512_S1000 hφ hacc (ix1 p)).trans ?_
  refine Finset.sum_congr rfl fun k _ => congrArg v (funext fun a => Fin.ext ?_)
  match a with
  | ⟨0, _⟩ => rfl
  | ⟨1, _⟩ => rfl

/-- The clamped mean of a block: row `p` of the sums over the clamped count of row `p`. -/
theorem mean_apply (s : Vec Ideal S1000x512 .f32) (c : Vec Ideal S1000x1 .f32) (p : Fin 1000) (k : Fin 512) :
    divf s (broadcastTo S1000x512 (maximumf c
        (broadcast S1000x1 (FloatOps.ofBits (F := Ideal) .f32 0x3F800000#32))) broadcasts_S1000x1_S1000x512) (ix2 p k)
      = mean (rowOf s p) (c (ix2 p 0)) k := by
  rw [divf_apply, col_apply]
  rfl

/-- A block's rows over their clamped Euclidean norms. -/
theorem l2n_apply (v : FVec Ideal S1000x512 .f32) (hφ : FKind.Formats FTy.f32)
    (hacc : (0x00000000#32 : BitVec 32) = 0x00000000#32) (p : Fin 1000) (k : Fin 512) :
    divf v (broadcastTo S1000x512 (maximumf (sqrt (shapeCast S1000x1
        (multiReduction .add [1] S1000 (mulf v v) 0x00000000#32 reduces_S1000x512_S1000 hφ hacc) shapeCasts_S1000_S1000x1))
        (broadcast S1000x1 (FloatOps.ofBits (F := Ideal) .f32 0x2B8CBCCC#32))) broadcasts_S1000x1_S1000x512) (ix2 p k)
      = l2n (fun k' => v (ix2 p k')) k := by
  rw [divf_apply, col_apply]
  show Ideal.div (v (ix2 p k)) (max (Ideal.sqrt (shapeCast S1000x1 _ shapeCasts_S1000_S1000x1 (ix2 p 0))) _) = _
  rw [keep_apply, rowsum_apply]
  rfl

/-- A block with every row over its clamped Euclidean norm, as one function of the block. -/
def l2nV (v : S1000x512.Idx → EReal) : S1000x512.Idx → EReal := fun i => l2n (fun k' => v (ix2 (i 0) k')) (i 1)

theorem l2nV_apply (v : S1000x512.Idx → EReal) (p : Fin 1000) (k : Fin 512) :
    l2nV v (ix2 p k) = l2n (fun k' => v (ix2 p k')) k := rfl

/-- The body's normalisation of a block is that function. -/
theorem l2n_vec (v : FVec Ideal S1000x512 .f32) (hφ : FKind.Formats FTy.f32)
    (hacc : (0x00000000#32 : BitVec 32) = 0x00000000#32) :
    divf v (broadcastTo S1000x512 (maximumf (sqrt (shapeCast S1000x1
        (multiReduction .add [1] S1000 (mulf v v) 0x00000000#32 reduces_S1000x512_S1000 hφ hacc) shapeCasts_S1000_S1000x1))
        (broadcast S1000x1 (FloatOps.ofBits (F := Ideal) .f32 0x2B8CBCCC#32))) broadcasts_S1000x1_S1000x512)
      = l2nV v := by
  funext i
  obtain ⟨p, k, rfl⟩ : ∃ (p : Fin 1000) (k : Fin 512), i = ix2 p k := ⟨i 0, i 1, eq_ix2 i⟩
  exact l2n_apply v hφ hacc p k

/-- The paper kernel's stored value at node `p` of the block and feature `q`: the two convolutions added term by
    term, normalised, and decoded against the two resident halves of the decoder's matrix. -/
theorem paper_pay (x0 : Vec Ideal S1000x512 .f32) (x1 : Vec Ideal S1000x1 .f32) (x2 : Vec Ideal S1000x512 .f32)
    (x3 : Vec Ideal S1000x1 .f32) (x4 : Vec Ideal S1000x512 .f32) (x5 x6 : Vec Ideal S512x512 .bf16)
    (x7 : Vec Ideal S1x512 .f32) (x8 x9 : Vec Ideal S512x512 .bf16) (x10 : Vec Ideal S1x512 .f32)
    (x11 x12 : Vec Ideal S512x512 .bf16) (x13 : Vec Ideal S1x512 .f32) (p : Fin 1000) (q : Fin 512) :
    k0_pay1 (F := Ideal) x4 (k0_pay2 x4) (k0_pay3 x2 x3) (k0_pay4 x8) (k0_pay5 x9) (k0_pay6 x4 x0 x1 x5 x6 x7) x10 x11 x12 x13 (ix2 p q)
      = decTwo (l2n (encSeq (rowOf x0 p) (x1 (ix2 p 0)) (rowOf x2 p) (x3 (ix2 p 0)) (rowOf x4 p)
            (matT x5) (matT x6) (rowOf (n := 1) x7 0) (matT x8) (matT x9) (rowOf (n := 1) x10 0)))
          (l2n (rowOf x4 p)) (matT x11) (matT x12) (rowOf (n := 1) x13 0) q := by
  simp only [k0_pay1, k0_pay2, k0_pay3, k0_pay4, k0_pay5, k0_pay6, shapeCast_self]
  rw [l2n_vec, l2n_vec]
  simp only [addf_apply, mm_apply, row_apply, truncf_apply, l2nV_apply, mean_apply]
  rfl

/-- The dataset kernel's stored value at node `p` of the block and feature `q`. -/
theorem dataset_pay (x0 : Vec Ideal S1000x512 .f32) (x1 : Vec Ideal S1000x1 .f32) (x2 : Vec Ideal S1000x512 .f32)
    (x3 x4 : Vec Ideal S512x512 .bf16) (x5 : Vec Ideal S1x512 .f32) (x6 x7 : Vec Ideal S512x512 .bf16)
    (x8 : Vec Ideal S1x512 .f32) (p : Fin 1000) (q : Fin 512) :
    k1_pay1 (F := Ideal) (k1_pay2 x2 x0 x1 x3 x4 x5) (k1_pay3 x2) x6 x7 x8 (ix2 p q)
      = decTwo (l2n (conv (rowOf x0 p) (x1 (ix2 p 0)) (rowOf x2 p) (matT x3) (matT x4) (rowOf (n := 1) x5 0)))
          (l2n (rowOf x2 p)) (matT x6) (matT x7) (rowOf (n := 1) x8 0) q := by
  simp only [k1_pay1, k1_pay2, k1_pay3, shapeCast_self]
  rw [l2n_vec, l2n_vec]
  simp only [addf_apply, mm_apply, row_apply, truncf_apply, l2nV_apply, mean_apply]
  rfl

end Cert.KBody

end
-- ==== Proof.KFlush.lean ====
/-
  From blocks to arrays, for both regions.  Each region tiles its node axis in blocks of 1000 rows: grid point `t`
  fetches rows 1000·t … 1000·t + 999 of every row array and the whole of every resident array, and writes back rows
  1000·t … 1000·t + 999 of the output.  Row `p` of what point `t` writes is the row-level function of row
  1000·t + p of the arrays the region finds, so every write-back is the restriction of ONE function of those arrays to the
  point's block, and the blocks cover the output array: after the last write-back the output array is that function.
-/
import proofs.«137761_j84894323573132_2_alg».proof.Proof.FrameKI
import proofs.«137761_j84894323573132_2_alg».proof.Proof.KBody

-- membership in a rectangle of production extents (`View.cover_of_tiled`): the elaborator's structural look
-- recurses once per coordinate of the long axes
set_option maxRecDepth 16384

noncomputable section

namespace Cert.KFlush

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec Cert.KBody

variable (V : (c : Dev nD) → (b : Ref sig .tc) → Buf (Elt Ideal) ((c : Thread nD τ).loc b))

theorem hz : (![0, 0] : Fin 2 → Nat) = fun _ => 0 := funext fun a => by fin_cases a <;> rfl

/-! ## Region 0: 50 grid points of 1000 nodes each over 50000 nodes -/

/-- The printed index maps, decided over the grid: a row window's block at point `t` is block row `t`, a resident
    window's is the whole array. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_14.index t (0 : Fin 2) = t.val
    ∧ win0_14.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0 :=
  (by decide +kernel : ∀ t : Fin grid0.N, _)

/-- The node that row `p` of point `t`'s block is. -/
def node0 (t : Fin cfg0.N) (p : Fin 1000) : Fin 50000 :=
  ⟨t.val * 1000 + p.val, by have hN : cfg0.N = 50 := N_0; have := t.isLt; have := p.isLt; omega⟩

/-- Window 0's block at point `t`, row `p`: the array's row `node0 t p`. -/
theorem blk0_0 (c : Dev nD) (t : Fin cfg0.N) (p : Fin 1000) (k : Fin 512) :
    (iblk0 V c 0 t : S1000x512.Idx → EReal) (ix2 p k) = (V c main_v21 : S50000x512.Idx → EReal) (ix2 (node0 t p) k) := by
  obtain ⟨e0, e1, e2, e3, e4, e5, e6, e7, e8, e9, e10, e11, e12, e13, e14, e15, e16, e17, e18, e19, e20, e21, e22, e23, e24, e25, e26, e27, e28, e29⟩ := idx0 t
  show (V c main_v21 : S50000x512.Idx → EReal) (((cfg0.win 0).blk t).view.emb (ix2 p k)) = _
  refine congrArg _ (funext fun a => Fin.ext ?_)
  match a with
  | ⟨0, _⟩ => show win0_0.index t (0 : Fin 2) * 1000 + 1 * p.val = t.val * 1000 + p.val; rw [e0]; omega
  | ⟨1, _⟩ => show win0_0.index t (1 : Fin 2) * 512 + 1 * k.val = k.val; rw [e1]; omega

/-- Window 1's block at point `t`, row `p`: the array's row `node0 t p`. -/
theorem blk0_1 (c : Dev nD) (t : Fin cfg0.N) (p : Fin 1000) (k : Fin 1) :
    (iblk0 V c 1 t : S1000x1.Idx → EReal) (ix2 p k) = (V c main_v26 : S50000x1.Idx → EReal) (ix2 (node0 t p) k) := by
  obtain ⟨e0, e1, e2, e3, e4, e5, e6, e7, e8, e9, e10, e11, e12, e13, e14, e15, e16, e17, e18, e19, e20, e21, e22, e23, e24, e25, e26, e27, e28, e29⟩ := idx0 t
  show (V c main_v26 : S50000x1.Idx → EReal) (((cfg0.win 1).blk t).view.emb (ix2 p k)) = _
  refine congrArg _ (funext fun a => Fin.ext ?_)
  match a with
  | ⟨0, _⟩ => show win0_1.index t (0 : Fin 2) * 1000 + 1 * p.val = t.val * 1000 + p.val; rw [e2]; omega
  | ⟨1, _⟩ => show win0_1.index t (1 : Fin 2) * 1 + 1 * k.val = k.val; rw [e3]; omega

/-- Window 2's block at point `t`, row `p`: the array's row `node0 t p`. -/
theorem blk0_2 (c : Dev nD) (t : Fin cfg0.N) (p : Fin 1000) (k : Fin 512) :
    (iblk0 V c 2 t : S1000x512.Idx → EReal) (ix2 p k) = (V c main_v51 : S50000x512.Idx → EReal) (ix2 (node0 t p) k) := by
  obtain ⟨e0, e1, e2, e3, e4, e5, e6, e7, e8, e9, e10, e11, e12, e13, e14, e15, e16, e17, e18, e19, e20, e21, e22, e23, e24, e25, e26, e27, e28, e29⟩ := idx0 t
  show (V c main_v51 : S50000x512.Idx → EReal) (((cfg0.win 2).blk t).view.emb (ix2 p k)) = _
  refine congrArg _ (funext fun a => Fin.ext ?_)
  match a with
  | ⟨0, _⟩ => show win0_2.index t (0 : Fin 2) * 1000 + 1 * p.val = t.val * 1000 + p.val; rw [e4]; omega
  | ⟨1, _⟩ => show win0_2.index t (1 : Fin 2) * 512 + 1 * k.val = k.val; rw [e5]; omega

/-- Window 3's block at point `t`, row `p`: the array's row `node0 t p`. -/
theorem blk0_3 (c : Dev nD) (t : Fin cfg0.N) (p : Fin 1000) (k : Fin 1) :
    (iblk0 V c 3 t : S1000x1.Idx → EReal) (ix2 p k) = (V c main_v56 : S50000x1.Idx → EReal) (ix2 (node0 t p) k) := by
  obtain ⟨e0, e1, e2, e3, e4, e5, e6, e7, e8, e9, e10, e11, e12, e13, e14, e15, e16, e17, e18, e19, e20, e21, e22, e23, e24, e25, e26, e27, e28, e29⟩ := idx0 t
  show (V c main_v56 : S50000x1.Idx → EReal) (((cfg0.win 3).blk t).view.emb (ix2 p k)) = _
  refine congrArg _ (funext fun a => Fin.ext ?_)
  match a with
  | ⟨0, _⟩ => show win0_3.index t (0 : Fin 2) * 1000 + 1 * p.val = t.val * 1000 + p.val; rw [e6]; omega
  | ⟨1, _⟩ => show win0_3.index t (1 : Fin 2) * 1 + 1 * k.val = k.val; rw [e7]; omega

/-- Window 4's block at point `t`, row `p`: the array's row `node0 t p`. -/
theorem blk0_4 (c : Dev nD) (t : Fin cfg0.N) (p : Fin 1000) (k : Fin 512) :
    (iblk0 V c 4 t : S1000x512.Idx → EReal) (ix2 p k) = (V c main_arg0 : S50000x512.Idx → EReal) (ix2 (node0 t p) k) := by
  obtain ⟨e0, e1, e2, e3, e4, e5, e6, e7, e8, e9, e10, e11, e12, e13, e14, e15, e16, e17, e18, e19, e20, e21, e22, e23, e24, e25, e26, e27, e28, e29⟩ := idx0 t
  show (V c main_arg0 : S50000x512.Idx → EReal) (((cfg0.win 4).blk t).view.emb (ix2 p k)) = _
  refine congrArg _ (funext fun a => Fin.ext ?_)
  match a with
  | ⟨0, _⟩ => show win0_4.index t (0 : Fin 2) * 1000 + 1 * p.val = t.val * 1000 + p.val; rw [e8]; omega
  | ⟨1, _⟩ => show win0_4.index t (1 : Fin 2) * 512 + 1 * k.val = k.val; rw [e9]; omega

/-- Window 5 is resident: its block at every point is the whole array. -/
theorem blk0_5 (c : Dev nD) (t : Fin cfg0.N) (a0 : Fin 512) (a1 : Fin 512) :
    (iblk0 V c 5 t : S512x512.Idx → EReal) (ix2 a0 a1) = (V c main_v58 : S512x512.Idx → EReal) (ix2 a0 a1) := by
  obtain ⟨e0, e1, e2, e3, e4, e5, e6, e7, e8, e9, e10, e11, e12, e13, e14, e15, e16, e17, e18, e19, e20, e21, e22, e23, e24, e25, e26, e27, e28, e29⟩ := idx0 t
  show (V c main_v58 : S512x512.Idx → EReal) (((cfg0.win 5).blk t).view.emb (ix2 a0 a1)) = _
  refine congrArg _ (funext fun a => Fin.ext ?_)
  match a with
  | ⟨0, _⟩ => show win0_5.index t (0 : Fin 2) * 512 + 1 * a0.val = a0.val; rw [e12]; omega
  | ⟨1, _⟩ => show win0_5.index t (1 : Fin 2) * 512 + 1 * a1.val = a1.val; rw [e13]; omega

/-- Window 6 is resident: its block at every point is the whole array. -/
theorem blk0_6 (c : Dev nD) (t : Fin cfg0.N) (a0 : Fin 512) (a1 : Fin 512) :
    (iblk0 V c 6 t : S512x512.Idx → EReal) (ix2 a0 a1) = (V c main_v60 : S512x512.Idx → EReal) (ix2 a0 a1) := by
  obtain ⟨e0, e1, e2, e3, e4, e5, e6, e7, e8, e9, e10, e11, e12, e13, e14, e15, e16, e17, e18, e19, e20, e21, e22, e23, e24, e25, e26, e27, e28, e29⟩ := idx0 t
  show (V c main_v60 : S512x512.Idx → EReal) (((cfg0.win 6).blk t).view.emb (ix2 a0 a1)) = _
  refine congrArg _ (funext fun a => Fin.ext ?_)
  match a with
  | ⟨0, _⟩ => show win0_6.index t (0 : Fin 2) * 512 + 1 * a0.val = a0.val; rw [e14]; omega
  | ⟨1, _⟩ => show win0_6.index t (1 : Fin 2) * 512 + 1 * a1.val = a1.val; rw [e15]; omega

/-- Window 7 is resident: its block at every point is the whole array. -/
theorem blk0_7 (c : Dev nD) (t : Fin cfg0.N) (a0 : Fin 1) (a1 : Fin 512) :
    (iblk0 V c 7 t : S1x512.Idx → EReal) (ix2 a0 a1) = (V c main_v79 : S1x512.Idx → EReal) (ix2 a0 a1) := by
  obtain ⟨e0, e1, e2, e3, e4, e5, e6, e7, e8, e9, e10, e11, e12, e13, e14, e15, e16, e17, e18, e19, e20, e21, e22, e23, e24, e25, e26, e27, e28, e29⟩ := idx0 t
  show (V c main_v79 : S1x512.Idx → EReal) (((cfg0.win 7).blk t).view.emb (ix2 a0 a1)) = _
  refine congrArg _ (funext fun a => Fin.ext ?_)
  match a with
  | ⟨0, _⟩ => show win0_7.index t (0 : Fin 2) * 1 + 1 * a0.val = a0.val; rw [e16]; omega
  | ⟨1, _⟩ => show win0_7.index t (1 : Fin 2) * 512 + 1 * a1.val = a1.val; rw [e17]; omega

/-- Window 8 is resident: its block at every point is the whole array. -/
theorem blk0_8 (c : Dev nD) (t : Fin cfg0.N) (a0 : Fin 512) (a1 : Fin 512) :
    (iblk0 V c 8 t : S512x512.Idx → EReal) (ix2 a0 a1) = (V c main_v66 : S512x512.Idx → EReal) (ix2 a0 a1) := by
  obtain ⟨e0, e1, e2, e3, e4, e5, e6, e7, e8, e9, e10, e11, e12, e13, e14, e15, e16, e17, e18, e19, e20, e21, e22, e23, e24, e25, e26, e27, e28, e29⟩ := idx0 t
  show (V c main_v66 : S512x512.Idx → EReal) (((cfg0.win 8).blk t).view.emb (ix2 a0 a1)) = _
  refine congrArg _ (funext fun a => Fin.ext ?_)
  match a with
  | ⟨0, _⟩ => show win0_8.index t (0 : Fin 2) * 512 + 1 * a0.val = a0.val; rw [e18]; omega
  | ⟨1, _⟩ => show win0_8.index t (1 : Fin 2) * 512 + 1 * a1.val = a1.val; rw [e19]; omega

/-- Window 9 is resident: its block at every point is the whole array. -/
theorem blk0_9 (c : Dev nD) (t : Fin cfg0.N) (a0 : Fin 512) (a1 : Fin 512) :
    (iblk0 V c 9 t : S512x512.Idx → EReal) (ix2 a0 a1) = (V c main_v68 : S512x512.Idx → EReal) (ix2 a0 a1) := by
  obtain ⟨e0, e1, e2, e3, e4, e5, e6, e7, e8, e9, e10, e11, e12, e13, e14, e15, e16, e17, e18, e19, e20, e21, e22, e23, e24, e25, e26, e27, e28, e29⟩ := idx0 t
  show (V c main_v68 : S512x512.Idx → EReal) (((cfg0.win 9).blk t).view.emb (ix2 a0 a1)) = _
  refine congrArg _ (funext fun a => Fin.ext ?_)
  match a with
  | ⟨0, _⟩ => show win0_9.index t (0 : Fin 2) * 512 + 1 * a0.val = a0.val; rw [e20]; omega
  | ⟨1, _⟩ => show win0_9.index t (1 : Fin 2) * 512 + 1 * a1.val = a1.val; rw [e21]; omega

/-- Window 10 is resident: its block at every point is the whole array. -/
theorem blk0_10 (c : Dev nD) (t : Fin cfg0.N) (a0 : Fin 1) (a1 : Fin 512) :
    (iblk0 V c 10 t : S1x512.Idx → EReal) (ix2 a0 a1) = (V c main_v80 : S1x512.Idx → EReal) (ix2 a0 a1) := by
  obtain ⟨e0, e1, e2, e3, e4, e5, e6, e7, e8, e9, e10, e11, e12, e13, e14, e15, e16, e17, e18, e19, e20, e21, e22, e23, e24, e25, e26, e27, e28, e29⟩ := idx0 t
  show (V c main_v80 : S1x512.Idx → EReal) (((cfg0.win 10).blk t).view.emb (ix2 a0 a1)) = _
  refine congrArg _ (funext fun a => Fin.ext ?_)
  match a with
  | ⟨0, _⟩ => show win0_10.index t (0 : Fin 2) * 1 + 1 * a0.val = a0.val; rw [e22]; omega
  | ⟨1, _⟩ => show win0_10.index t (1 : Fin 2) * 512 + 1 * a1.val = a1.val; rw [e23]; omega

/-- Window 11 is resident: its block at every point is the whole array. -/
theorem blk0_11 (c : Dev nD) (t : Fin cfg0.N) (a0 : Fin 512) (a1 : Fin 512) :
    (iblk0 V c 11 t : S512x512.Idx → EReal) (ix2 a0 a1) = (V c main_v71 : S512x512.Idx → EReal) (ix2 a0 a1) := by
  obtain ⟨e0, e1, e2, e3, e4, e5, e6, e7, e8, e9, e10, e11, e12, e13, e14, e15, e16, e17, e18, e19, e20, e21, e22, e23, e24, e25, e26, e27, e28, e29⟩ := idx0 t
  show (V c main_v71 : S512x512.Idx → EReal) (((cfg0.win 11).blk t).view.emb (ix2 a0 a1)) = _
  refine congrArg _ (funext fun a => Fin.ext ?_)
  match a with
  | ⟨0, _⟩ => show win0_11.index t (0 : Fin 2) * 512 + 1 * a0.val = a0.val; rw [e24]; omega
  | ⟨1, _⟩ => show win0_11.index t (1 : Fin 2) * 512 + 1 * a1.val = a1.val; rw [e25]; omega

/-- Window 12 is resident: its block at every point is the whole array. -/
theorem blk0_12 (c : Dev nD) (t : Fin cfg0.N) (a0 : Fin 512) (a1 : Fin 512) :
    (iblk0 V c 12 t : S512x512.Idx → EReal) (ix2 a0 a1) = (V c main_v73 : S512x512.Idx → EReal) (ix2 a0 a1) := by
  obtain ⟨e0, e1, e2, e3, e4, e5, e6, e7, e8, e9, e10, e11, e12, e13, e14, e15, e16, e17, e18, e19, e20, e21, e22, e23, e24, e25, e26, e27, e28, e29⟩ := idx0 t
  show (V c main_v73 : S512x512.Idx → EReal) (((cfg0.win 12).blk t).view.emb (ix2 a0 a1)) = _
  refine congrArg _ (funext fun a => Fin.ext ?_)
  match a with
  | ⟨0, _⟩ => show win0_12.index t (0 : Fin 2) * 512 + 1 * a0.val = a0.val; rw [e26]; omega
  | ⟨1, _⟩ => show win0_12.index t (1 : Fin 2) * 512 + 1 * a1.val = a1.val; rw [e27]; omega

/-- Window 13 is resident: its block at every point is the whole array. -/
theorem blk0_13 (c : Dev nD) (t : Fin cfg0.N) (a0 : Fin 1) (a1 : Fin 512) :
    (iblk0 V c 13 t : S1x512.Idx → EReal) (ix2 a0 a1) = (V c main_v82 : S1x512.Idx → EReal) (ix2 a0 a1) := by
  obtain ⟨e0, e1, e2, e3, e4, e5, e6, e7, e8, e9, e10, e11, e12, e13, e14, e15, e16, e17, e18, e19, e20, e21, e22, e23, e24, e25, e26, e27, e28, e29⟩ := idx0 t
  show (V c main_v82 : S1x512.Idx → EReal) (((cfg0.win 13).blk t).view.emb (ix2 a0 a1)) = _
  refine congrArg _ (funext fun a => Fin.ext ?_)
  match a with
  | ⟨0, _⟩ => show win0_13.index t (0 : Fin 2) * 1 + 1 * a0.val = a0.val; rw [e28]; omega
  | ⟨1, _⟩ => show win0_13.index t (1 : Fin 2) * 512 + 1 * a1.val = a1.val; rw [e29]; omega

/-- The output block's place in the array: row `p` of point `t`'s block is node `node0 t p`. -/
theorem emb0 (t : Fin cfg0.N) (p : Fin 1000) (q : Fin 512) :
    ((cfg0.win 14).blk t).view.emb (ix2 p q) = (ix2 (node0 t p) q : S50000x512.Idx) := by
  obtain ⟨e0, e1, e2, e3, e4, e5, e6, e7, e8, e9, e10, e11, e12, e13, e14, e15, e16, e17, e18, e19, e20, e21, e22, e23, e24, e25, e26, e27, e28, e29⟩ := idx0 t
  refine funext fun a => Fin.ext ?_
  match a with
  | ⟨0, _⟩ => show win0_14.index t (0 : Fin 2) * 1000 + 1 * p.val = t.val * 1000 + p.val; rw [e10]; omega
  | ⟨1, _⟩ => show win0_14.index t (1 : Fin 2) * 512 + 1 * q.val = q.val; rw [e11]; omega

/-- An index of the output array lies in point `t`'s block iff each coordinate lies in the block's range. -/
theorem mem_blk0 (t : Fin cfg0.N) (i : S50000x512.Idx) :
    i ∈ ((cfg0.win 14).blk t).view.set ↔ ∀ a : Fin 2, win0_14.index t a * S1000x512.size a ≤ (i a).val ∧ (i a).val < win0_14.index t a * S1000x512.size a + S1000x512.size a := by
  show i ∈ ((View.whole main_v84).slice (win0_14.rect t)).set ↔ _
  rw [View.set_slice_whole, Rect.mem_set_unit]
  exact Iff.rfl

/-- Every node's row is in the block of the point that holds it. -/
theorem cover0 (i : S50000x512.Idx) : ∃ t : Fin cfg0.N, (cfg0.win 14).flush t = true ∧ i ∈ ((cfg0.win 14).blk t).view.set := by
  have hN : cfg0.N = 50 := N_0
  have hi0 : (i 0).val < 50000 := (i 0).isLt
  have hi1 : (i 1).val < 512 := (i 1).isLt
  refine ⟨⟨(i 0).val / 1000, by omega⟩, flush0_14 _, ?_⟩
  rw [mem_blk0]
  obtain ⟨e0, e1, e2, e3, e4, e5, e6, e7, e8, e9, e10, e11, e12, e13, e14, e15, e16, e17, e18, e19, e20, e21, e22, e23, e24, e25, e26, e27, e28, e29⟩ := idx0 ⟨(i 0).val / 1000, by omega⟩
  intro a
  match a with
  | ⟨0, _⟩ => show win0_14.index _ (0 : Fin 2) * 1000 ≤ (i 0).val ∧ (i 0).val < win0_14.index _ (0 : Fin 2) * 1000 + 1000; rw [e10]; show (i 0).val / 1000 * 1000 ≤ (i 0).val ∧ (i 0).val < (i 0).val / 1000 * 1000 + 1000; omega
  | ⟨1, _⟩ => show win0_14.index _ (1 : Fin 2) * 512 ≤ (i 1).val ∧ (i 1).val < win0_14.index _ (1 : Fin 2) * 512 + 512; rw [e11]; omega

/-- The paper embedding at node `r`, feature `q`, from the arrays the paper region finds. -/
def paperK (c : Dev nD) (r : Fin 50000) (q : Fin 512) : EReal :=
  decTwo (l2n (encSeq (rowOf (V c main_v21 : S50000x512.Idx → EReal) r) ((V c main_v26 : S50000x1.Idx → EReal) (ix2 r 0))
        (rowOf (V c main_v51 : S50000x512.Idx → EReal) r) ((V c main_v56 : S50000x1.Idx → EReal) (ix2 r 0))
        (rowOf (V c main_arg0 : S50000x512.Idx → EReal) r)
        (matT (V c main_v58)) (matT (V c main_v60)) (rowOf (n := 1) (V c main_v79 : S1x512.Idx → EReal) 0)
        (matT (V c main_v66)) (matT (V c main_v68)) (rowOf (n := 1) (V c main_v80 : S1x512.Idx → EReal) 0)))
    (l2n (rowOf (V c main_arg0 : S50000x512.Idx → EReal) r)) (matT (V c main_v71)) (matT (V c main_v73))
    (rowOf (n := 1) (V c main_v82 : S1x512.Idx → EReal) 0) q

/-- The same as one function of the array index. -/
def paperArrK (c : Dev nD) : S50000x512.Idx → EReal := fun i => paperK V c (i 0) (i 1)

set_option maxHeartbeats 8000000 in
/-- What point `t` of the paper region writes back is block `t` of that function. -/
theorem flushed0 (c : Dev nD) (t : Fin cfg0.N) :
    (dat0 V c).flushed 14 t = ((cfg0.win 14).blk t).view.read (Elt Ideal) (paperArrK V c) := by
  show (cfg0.win 14).cut (grid0.coords t) ((dat0 V c).after 14 t) = _
  rw [after0_14]
  unfold out0_14
  rw [View.canon_unit_zero hz]
  simp only [View.ld_unit_zero (S := S1000x512) hz, View.ld_unit_zero (S := S1000x1) hz,
    View.ld_unit_zero (S := S512x512) hz, View.ld_unit_zero (S := S1x512) hz]
  refine funext fun (j : S1000x512.Idx) => ?_
  obtain ⟨p, q, rfl⟩ : ∃ (p : Fin 1000) (q : Fin 512), j = ix2 p q := ⟨j 0, j 1, eq_ix2 j⟩
  show k0_pay1 (iblk0 V c 4 t) (k0_pay2 (iblk0 V c 4 t)) (k0_pay3 (iblk0 V c 2 t) (iblk0 V c 3 t)) (k0_pay4 (iblk0 V c 8 t)) (k0_pay5 (iblk0 V c 9 t))
      (k0_pay6 (iblk0 V c 4 t) (iblk0 V c 0 t) (iblk0 V c 1 t) (iblk0 V c 5 t) (iblk0 V c 6 t) (iblk0 V c 7 t)) (iblk0 V c 10 t) (iblk0 V c 11 t) (iblk0 V c 12 t) (iblk0 V c 13 t) (ix2 p q)
    = paperArrK V c (((cfg0.win 14).blk t).view.emb (ix2 p q))
  rw [emb0]
  refine (paper_pay (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) p q).trans ?_
  show _ = paperK V c (node0 t p) q
  unfold paperK
  have r0 : rowOf (iblk0 V c 0 t : S1000x512.Idx → EReal) p = rowOf (V c main_v21 : S50000x512.Idx → EReal) (node0 t p) := funext fun k => blk0_0 V c t p k
  have r2 : rowOf (iblk0 V c 2 t : S1000x512.Idx → EReal) p = rowOf (V c main_v51 : S50000x512.Idx → EReal) (node0 t p) := funext fun k => blk0_2 V c t p k
  have r4 : rowOf (iblk0 V c 4 t : S1000x512.Idx → EReal) p = rowOf (V c main_arg0 : S50000x512.Idx → EReal) (node0 t p) := funext fun k => blk0_4 V c t p k
  have c1 : (iblk0 V c 1 t : S1000x1.Idx → EReal) (ix2 p 0) = (V c main_v26 : S50000x1.Idx → EReal) (ix2 (node0 t p) 0) := blk0_1 V c t p 0
  have c3 : (iblk0 V c 3 t : S1000x1.Idx → EReal) (ix2 p 0) = (V c main_v56 : S50000x1.Idx → EReal) (ix2 (node0 t p) 0) := blk0_3 V c t p 0
  have m5 : matT (iblk0 V c 5 t) = matT (V c main_v58) := funext fun j => funext fun k => blk0_5 V c t k j
  have m6 : matT (iblk0 V c 6 t) = matT (V c main_v60) := funext fun j => funext fun k => blk0_6 V c t k j
  have m8 : matT (iblk0 V c 8 t) = matT (V c main_v66) := funext fun j => funext fun k => blk0_8 V c t k j
  have m9 : matT (iblk0 V c 9 t) = matT (V c main_v68) := funext fun j => funext fun k => blk0_9 V c t k j
  have m11 : matT (iblk0 V c 11 t) = matT (V c main_v71) := funext fun j => funext fun k => blk0_11 V c t k j
  have m12 : matT (iblk0 V c 12 t) = matT (V c main_v73) := funext fun j => funext fun k => blk0_12 V c t k j
  have b7 : rowOf (n := 1) (iblk0 V c 7 t : S1x512.Idx → EReal) 0 = rowOf (n := 1) (V c main_v79 : S1x512.Idx → EReal) 0 := funext fun k => blk0_7 V c t 0 k
  have b10 : rowOf (n := 1) (iblk0 V c 10 t : S1x512.Idx → EReal) 0 = rowOf (n := 1) (V c main_v80 : S1x512.Idx → EReal) 0 := funext fun k => blk0_10 V c t 0 k
  have b13 : rowOf (n := 1) (iblk0 V c 13 t : S1x512.Idx → EReal) 0 = rowOf (n := 1) (V c main_v82 : S1x512.Idx → EReal) 0 := funext fun k => blk0_13 V c t 0 k
  rw [r0, r2, r4, c1, c3, m5, m6, m8, m9, m11, m12, b7, b10, b13]

/-- THE PAPER EMBEDDING after the paper region: that function of the arrays the region finds. -/
theorem final0 (c : Dev nD) : (dat0 V c).arrAt 14 cfg0.N = paperArrK V c :=
  (dat0 V c).arrAt_eq_of_cover 14 (paperArrK V c) (fun t _ => flushed0 V c t) (cover0)

/-! ## Region 1: 5 grid points of 1000 nodes each over 5000 nodes -/

/-- The printed index maps, decided over the grid: a row window's block at point `t` is block row `t`, a resident
    window's is the whole array. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_9.index t (0 : Fin 2) = t.val
    ∧ win1_9.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0 :=
  (by decide +kernel : ∀ t : Fin grid1.N, _)

/-- The node that row `p` of point `t`'s block is. -/
def node1 (t : Fin cfg1.N) (p : Fin 1000) : Fin 5000 :=
  ⟨t.val * 1000 + p.val, by have hN : cfg1.N = 5 := N_1; have := t.isLt; have := p.isLt; omega⟩

/-- Window 0's block at point `t`, row `p`: the array's row `node1 t p`. -/
theorem blk1_0 (c : Dev nD) (t : Fin cfg1.N) (p : Fin 1000) (k : Fin 512) :
    (iblk1 V c 0 t : S1000x512.Idx → EReal) (ix2 p k) = (V c main_v36 : S5000x512.Idx → EReal) (ix2 (node1 t p) k) := by
  obtain ⟨e0, e1, e2, e3, e4, e5, e6, e7, e8, e9, e10, e11, e12, e13, e14, e15, e16, e17, e18, e19⟩ := idx1 t
  show (V c main_v36 : S5000x512.Idx → EReal) (((cfg1.win 0).blk t).view.emb (ix2 p k)) = _
  refine congrArg _ (funext fun a => Fin.ext ?_)
  match a with
  | ⟨0, _⟩ => show win1_0.index t (0 : Fin 2) * 1000 + 1 * p.val = t.val * 1000 + p.val; rw [e0]; omega
  | ⟨1, _⟩ => show win1_0.index t (1 : Fin 2) * 512 + 1 * k.val = k.val; rw [e1]; omega

/-- Window 1's block at point `t`, row `p`: the array's row `node1 t p`. -/
theorem blk1_1 (c : Dev nD) (t : Fin cfg1.N) (p : Fin 1000) (k : Fin 1) :
    (iblk1 V c 1 t : S1000x1.Idx → EReal) (ix2 p k) = (V c main_v41 : S5000x1.Idx → EReal) (ix2 (node1 t p) k) := by
  obtain ⟨e0, e1, e2, e3, e4, e5, e6, e7, e8, e9, e10, e11, e12, e13, e14, e15, e16, e17, e18, e19⟩ := idx1 t
  show (V c main_v41 : S5000x1.Idx → EReal) (((cfg1.win 1).blk t).view.emb (ix2 p k)) = _
  refine congrArg _ (funext fun a => Fin.ext ?_)
  match a with
  | ⟨0, _⟩ => show win1_1.index t (0 : Fin 2) * 1000 + 1 * p.val = t.val * 1000 + p.val; rw [e2]; omega
  | ⟨1, _⟩ => show win1_1.index t (1 : Fin 2) * 1 + 1 * k.val = k.val; rw [e3]; omega

/-- Window 2's block at point `t`, row `p`: the array's row `node1 t p`. -/
theorem blk1_2 (c : Dev nD) (t : Fin cfg1.N) (p : Fin 1000) (k : Fin 512) :
    (iblk1 V c 2 t : S1000x512.Idx → EReal) (ix2 p k) = (V c main_arg1 : S5000x512.Idx → EReal) (ix2 (node1 t p) k) := by
  obtain ⟨e0, e1, e2, e3, e4, e5, e6, e7, e8, e9, e10, e11, e12, e13, e14, e15, e16, e17, e18, e19⟩ := idx1 t
  show (V c main_arg1 : S5000x512.Idx → EReal) (((cfg1.win 2).blk t).view.emb (ix2 p k)) = _
  refine congrArg _ (funext fun a => Fin.ext ?_)
  match a with
  | ⟨0, _⟩ => show win1_2.index t (0 : Fin 2) * 1000 + 1 * p.val = t.val * 1000 + p.val; rw [e4]; omega
  | ⟨1, _⟩ => show win1_2.index t (1 : Fin 2) * 512 + 1 * k.val = k.val; rw [e5]; omega

/-- Window 3 is resident: its block at every point is the whole array. -/
theorem blk1_3 (c : Dev nD) (t : Fin cfg1.N) (a0 : Fin 512) (a1 : Fin 512) :
    (iblk1 V c 3 t : S512x512.Idx → EReal) (ix2 a0 a1) = (V c main_v62 : S512x512.Idx → EReal) (ix2 a0 a1) := by
  obtain ⟨e0, e1, e2, e3, e4, e5, e6, e7, e8, e9, e10, e11, e12, e13, e14, e15, e16, e17, e18, e19⟩ := idx1 t
  show (V c main_v62 : S512x512.Idx → EReal) (((cfg1.win 3).blk t).view.emb (ix2 a0 a1)) = _
  refine congrArg _ (funext fun a => Fin.ext ?_)
  match a with
  | ⟨0, _⟩ => show win1_3.index t (0 : Fin 2) * 512 + 1 * a0.val = a0.val; rw [e8]; omega
  | ⟨1, _⟩ => show win1_3.index t (1 : Fin 2) * 512 + 1 * a1.val = a1.val; rw [e9]; omega

/-- Window 4 is resident: its block at every point is the whole array. -/
theorem blk1_4 (c : Dev nD) (t : Fin cfg1.N) (a0 : Fin 512) (a1 : Fin 512) :
    (iblk1 V c 4 t : S512x512.Idx → EReal) (ix2 a0 a1) = (V c main_v64 : S512x512.Idx → EReal) (ix2 a0 a1) := by
  obtain ⟨e0, e1, e2, e3, e4, e5, e6, e7, e8, e9, e10, e11, e12, e13, e14, e15, e16, e17, e18, e19⟩ := idx1 t
  show (V c main_v64 : S512x512.Idx → EReal) (((cfg1.win 4).blk t).view.emb (ix2 a0 a1)) = _
  refine congrArg _ (funext fun a => Fin.ext ?_)
  match a with
  | ⟨0, _⟩ => show win1_4.index t (0 : Fin 2) * 512 + 1 * a0.val = a0.val; rw [e10]; omega
  | ⟨1, _⟩ => show win1_4.index t (1 : Fin 2) * 512 + 1 * a1.val = a1.val; rw [e11]; omega

/-- Window 5 is resident: its block at every point is the whole array. -/
theorem blk1_5 (c : Dev nD) (t : Fin cfg1.N) (a0 : Fin 1) (a1 : Fin 512) :
    (iblk1 V c 5 t : S1x512.Idx → EReal) (ix2 a0 a1) = (V c main_v81 : S1x512.Idx → EReal) (ix2 a0 a1) := by
  obtain ⟨e0, e1, e2, e3, e4, e5, e6, e7, e8, e9, e10, e11, e12, e13, e14, e15, e16, e17, e18, e19⟩ := idx1 t
  show (V c main_v81 : S1x512.Idx → EReal) (((cfg1.win 5).blk t).view.emb (ix2 a0 a1)) = _
  refine congrArg _ (funext fun a => Fin.ext ?_)
  match a with
  | ⟨0, _⟩ => show win1_5.index t (0 : Fin 2) * 1 + 1 * a0.val = a0.val; rw [e12]; omega
  | ⟨1, _⟩ => show win1_5.index t (1 : Fin 2) * 512 + 1 * a1.val = a1.val; rw [e13]; omega

/-- Window 6 is resident: its block at every point is the whole array. -/
theorem blk1_6 (c : Dev nD) (t : Fin cfg1.N) (a0 : Fin 512) (a1 : Fin 512) :
    (iblk1 V c 6 t : S512x512.Idx → EReal) (ix2 a0 a1) = (V c main_v76 : S512x512.Idx → EReal) (ix2 a0 a1) := by
  obtain ⟨e0, e1, e2, e3, e4, e5, e6, e7, e8, e9, e10, e11, e12, e13, e14, e15, e16, e17, e18, e19⟩ := idx1 t
  show (V c main_v76 : S512x512.Idx → EReal) (((cfg1.win 6).blk t).view.emb (ix2 a0 a1)) = _
  refine congrArg _ (funext fun a => Fin.ext ?_)
  match a with
  | ⟨0, _⟩ => show win1_6.index t (0 : Fin 2) * 512 + 1 * a0.val = a0.val; rw [e14]; omega
  | ⟨1, _⟩ => show win1_6.index t (1 : Fin 2) * 512 + 1 * a1.val = a1.val; rw [e15]; omega

/-- Window 7 is resident: its block at every point is the whole array. -/
theorem blk1_7 (c : Dev nD) (t : Fin cfg1.N) (a0 : Fin 512) (a1 : Fin 512) :
    (iblk1 V c 7 t : S512x512.Idx → EReal) (ix2 a0 a1) = (V c main_v78 : S512x512.Idx → EReal) (ix2 a0 a1) := by
  obtain ⟨e0, e1, e2, e3, e4, e5, e6, e7, e8, e9, e10, e11, e12, e13, e14, e15, e16, e17, e18, e19⟩ := idx1 t
  show (V c main_v78 : S512x512.Idx → EReal) (((cfg1.win 7).blk t).view.emb (ix2 a0 a1)) = _
  refine congrArg _ (funext fun a => Fin.ext ?_)
  match a with
  | ⟨0, _⟩ => show win1_7.index t (0 : Fin 2) * 512 + 1 * a0.val = a0.val; rw [e16]; omega
  | ⟨1, _⟩ => show win1_7.index t (1 : Fin 2) * 512 + 1 * a1.val = a1.val; rw [e17]; omega

/-- Window 8 is resident: its block at every point is the whole array. -/
theorem blk1_8 (c : Dev nD) (t : Fin cfg1.N) (a0 : Fin 1) (a1 : Fin 512) :
    (iblk1 V c 8 t : S1x512.Idx → EReal) (ix2 a0 a1) = (V c main_v83 : S1x512.Idx → EReal) (ix2 a0 a1) := by
  obtain ⟨e0, e1, e2, e3, e4, e5, e6, e7, e8, e9, e10, e11, e12, e13, e14, e15, e16, e17, e18, e19⟩ := idx1 t
  show (V c main_v83 : S1x512.Idx → EReal) (((cfg1.win 8).blk t).view.emb (ix2 a0 a1)) = _
  refine congrArg _ (funext fun a => Fin.ext ?_)
  match a with
  | ⟨0, _⟩ => show win1_8.index t (0 : Fin 2) * 1 + 1 * a0.val = a0.val; rw [e18]; omega
  | ⟨1, _⟩ => show win1_8.index t (1 : Fin 2) * 512 + 1 * a1.val = a1.val; rw [e19]; omega

/-- The output block's place in the array: row `p` of point `t`'s block is node `node1 t p`. -/
theorem emb1 (t : Fin cfg1.N) (p : Fin 1000) (q : Fin 512) :
    ((cfg1.win 9).blk t).view.emb (ix2 p q) = (ix2 (node1 t p) q : S5000x512.Idx) := by
  obtain ⟨e0, e1, e2, e3, e4, e5, e6, e7, e8, e9, e10, e11, e12, e13, e14, e15, e16, e17, e18, e19⟩ := idx1 t
  refine funext fun a => Fin.ext ?_
  match a with
  | ⟨0, _⟩ => show win1_9.index t (0 : Fin 2) * 1000 + 1 * p.val = t.val * 1000 + p.val; rw [e6]; omega
  | ⟨1, _⟩ => show win1_9.index t (1 : Fin 2) * 512 + 1 * q.val = q.val; rw [e7]; omega

/-- An index of the output array lies in point `t`'s block iff each coordinate lies in the block's range. -/
theorem mem_blk1 (t : Fin cfg1.N) (i : S5000x512.Idx) :
    i ∈ ((cfg1.win 9).blk t).view.set ↔ ∀ a : Fin 2, win1_9.index t a * S1000x512.size a ≤ (i a).val ∧ (i a).val < win1_9.index t a * S1000x512.size a + S1000x512.size a := by
  show i ∈ ((View.whole main_v85).slice (win1_9.rect t)).set ↔ _
  rw [View.set_slice_whole, Rect.mem_set_unit]
  exact Iff.rfl

/-- Every node's row is in the block of the point that holds it. -/
theorem cover1 (i : S5000x512.Idx) : ∃ t : Fin cfg1.N, (cfg1.win 9).flush t = true ∧ i ∈ ((cfg1.win 9).blk t).view.set := by
  have hN : cfg1.N = 5 := N_1
  have hi0 : (i 0).val < 5000 := (i 0).isLt
  have hi1 : (i 1).val < 512 := (i 1).isLt
  refine ⟨⟨(i 0).val / 1000, by omega⟩, flush1_9 _, ?_⟩
  rw [mem_blk1]
  obtain ⟨e0, e1, e2, e3, e4, e5, e6, e7, e8, e9, e10, e11, e12, e13, e14, e15, e16, e17, e18, e19⟩ := idx1 ⟨(i 0).val / 1000, by omega⟩
  intro a
  match a with
  | ⟨0, _⟩ => show win1_9.index _ (0 : Fin 2) * 1000 ≤ (i 0).val ∧ (i 0).val < win1_9.index _ (0 : Fin 2) * 1000 + 1000; rw [e6]; show (i 0).val / 1000 * 1000 ≤ (i 0).val ∧ (i 0).val < (i 0).val / 1000 * 1000 + 1000; omega
  | ⟨1, _⟩ => show win1_9.index _ (1 : Fin 2) * 512 ≤ (i 1).val ∧ (i 1).val < win1_9.index _ (1 : Fin 2) * 512 + 512; rw [e7]; omega

/-- The dataset embedding at node `r`, feature `q`, from the arrays the dataset region finds. -/
def datasetK (c : Dev nD) (r : Fin 5000) (q : Fin 512) : EReal :=
  decTwo (l2n (conv (rowOf (V c main_v36 : S5000x512.Idx → EReal) r) ((V c main_v41 : S5000x1.Idx → EReal) (ix2 r 0))
        (rowOf (V c main_arg1 : S5000x512.Idx → EReal) r)
        (matT (V c main_v62)) (matT (V c main_v64)) (rowOf (n := 1) (V c main_v81 : S1x512.Idx → EReal) 0)))
    (l2n (rowOf (V c main_arg1 : S5000x512.Idx → EReal) r)) (matT (V c main_v76)) (matT (V c main_v78))
    (rowOf (n := 1) (V c main_v83 : S1x512.Idx → EReal) 0) q

/-- The same as one function of the array index. -/
def datasetArrK (c : Dev nD) : S5000x512.Idx → EReal := fun i => datasetK V c (i 0) (i 1)

/-- What point `t` of the dataset region writes back is block `t` of that function. -/
theorem flushed1 (c : Dev nD) (t : Fin cfg1.N) :
    (dat1 V c).flushed 9 t = ((cfg1.win 9).blk t).view.read (Elt Ideal) (datasetArrK V c) := by
  show (cfg1.win 9).cut (grid1.coords t) ((dat1 V c).after 9 t) = _
  rw [after1_9]
  unfold out1_9
  rw [View.canon_unit_zero hz]
  simp only [View.ld_unit_zero (S := S1000x512) hz, View.ld_unit_zero (S := S1000x1) hz,
    View.ld_unit_zero (S := S512x512) hz, View.ld_unit_zero (S := S1x512) hz]
  refine funext fun (j : S1000x512.Idx) => ?_
  obtain ⟨p, q, rfl⟩ : ∃ (p : Fin 1000) (q : Fin 512), j = ix2 p q := ⟨j 0, j 1, eq_ix2 j⟩
  show k1_pay1 (k1_pay2 (iblk1 V c 2 t) (iblk1 V c 0 t) (iblk1 V c 1 t) (iblk1 V c 3 t) (iblk1 V c 4 t) (iblk1 V c 5 t)) (k1_pay3 (iblk1 V c 2 t)) (iblk1 V c 6 t) (iblk1 V c 7 t) (iblk1 V c 8 t) (ix2 p q)
    = datasetArrK V c (((cfg1.win 9).blk t).view.emb (ix2 p q))
  rw [emb1]
  refine (dataset_pay (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  show _ = datasetK V c (node1 t p) q
  unfold datasetK
  have r0 : rowOf (iblk1 V c 0 t : S1000x512.Idx → EReal) p = rowOf (V c main_v36 : S5000x512.Idx → EReal) (node1 t p) := funext fun k => blk1_0 V c t p k
  have r2 : rowOf (iblk1 V c 2 t : S1000x512.Idx → EReal) p = rowOf (V c main_arg1 : S5000x512.Idx → EReal) (node1 t p) := funext fun k => blk1_2 V c t p k
  have c1 : (iblk1 V c 1 t : S1000x1.Idx → EReal) (ix2 p 0) = (V c main_v41 : S5000x1.Idx → EReal) (ix2 (node1 t p) 0) := blk1_1 V c t p 0
  have m3 : matT (iblk1 V c 3 t) = matT (V c main_v62) := funext fun j => funext fun k => blk1_3 V c t k j
  have m4 : matT (iblk1 V c 4 t) = matT (V c main_v64) := funext fun j => funext fun k => blk1_4 V c t k j
  have m6 : matT (iblk1 V c 6 t) = matT (V c main_v76) := funext fun j => funext fun k => blk1_6 V c t k j
  have m7 : matT (iblk1 V c 7 t) = matT (V c main_v78) := funext fun j => funext fun k => blk1_7 V c t k j
  have b5 : rowOf (n := 1) (iblk1 V c 5 t : S1x512.Idx → EReal) 0 = rowOf (n := 1) (V c main_v81 : S1x512.Idx → EReal) 0 := funext fun k => blk1_5 V c t 0 k
  have b8 : rowOf (n := 1) (iblk1 V c 8 t : S1x512.Idx → EReal) 0 = rowOf (n := 1) (V c main_v83 : S1x512.Idx → EReal) 0 := funext fun k => blk1_8 V c t 0 k
  rw [r0, r2, c1, m3, m4, m6, m7, b5, b8]

/-- THE DATASET EMBEDDING after the dataset region: that function of the arrays the region finds. -/
theorem final1 (c : Dev nD) : (dat1 V c).arrAt 9 cfg1.N = datasetArrK V c :=
  (dat1 V c).arrAt_eq_of_cover 9 (datasetArrK V c) (fun t _ => flushed1 V c t) (cover1)

end Cert.KFlush

end
-- ==== Proof.KHost.lean ====
/-
  The kernel's host operations before its two device programs, read back.

  The host prepares, from the arguments, what the device programs read: the message sums and the message
  counts of the three edge types (gathers and scatter-additions, the same operations on the same arguments
  as the reference's), the transposed weight matrices, the two halves of each transposed decoder matrix,
  and the biases as one-row arrays.  Each prepared array is stated here in terms of the arguments, whatever
  the contents of the buffers were before.
-/
import proofs.«137761_j84894323573132_2_alg».proof.Proof.Gen.KernelIdeal.Launch
import proofs.«137761_j84894323573132_2_alg».proof.Proof.Gen.ReferenceIdeal.Read
import proofs.«137761_j84894323573132_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 1920

noncomputable section

namespace Cert.KHost

open Cert.KernelIdeal Cert.KernelIdeal.Gen Idealize.ShloMosaic Idealize.ShloMosaic.TcCoe Idealize.ShloMosaic.StableHlo
  Idealize.ShloMosaic.ValueIdx

variable (W : Valuation τ sig (Elt Ideal))

local notation "A" => StableHlo.after (hostOps0 (F := Ideal)) W

/-! ## Two layout readings the statements below use -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The message sums: the reference's own gathers and scatter-additions of the same arguments -/

set_option maxHeartbeats 4000000 in
/-- Paper features summed over the paper-to-paper edges into their destination paper nodes. -/
theorem host_v21 : A main_v21 = Cert.ReferenceIdeal.Read.val_main_v13 (F := Ideal) (W main_arg0) (W main_arg2) := by
  show StableHlo.after hostOps0 _ (Proc.devRef .tc main_v21) = _
  after_results_simp
  rfl

set_option maxHeartbeats 4000000 in
/-- Dataset features summed over the dataset-to-paper edges into their destination paper nodes. -/
theorem host_v51 : A main_v51 = Cert.ReferenceIdeal.Read.val_main_v44 (F := Ideal) (W main_arg1) (W main_arg4) := by
  show StableHlo.after hostOps0 _ (Proc.devRef .tc main_v51) = _
  after_results_simp
  rfl

set_option maxHeartbeats 4000000 in
/-- Paper features summed over the paper-to-dataset edges into their destination dataset nodes. -/
theorem host_v36 : A main_v36 = Cert.ReferenceIdeal.Read.val_main_v76 (F := Ideal) (W main_arg0) (W main_arg3) := by
  show StableHlo.after hostOps0 _ (Proc.devRef .tc main_v36) = _
  after_results_simp
  rfl

/-! ## The message counts, each as a one-column array -/

set_option maxHeartbeats 4000000 in
/-- The number of paper-to-paper edges into a paper node. -/
theorem host_v26 (r : Fin 50000) : A main_v26 (ix2 r 0) = Cert.ReferenceIdeal.Read.val_main_v17 (F := Ideal) (W main_arg2) (ix1 r) := by
  show StableHlo.after hostOps0 _ (Proc.devRef .tc main_v26) _ = _
  after_results_simp
  refine (shapeCast_a_a1_apply _ _ r 0).trans ?_
  rfl

set_option maxHeartbeats 4000000 in
/-- The number of dataset-to-paper edges into a paper node. -/
theorem host_v56 (r : Fin 50000) : A main_v56 (ix2 r 0) = Cert.ReferenceIdeal.Read.val_main_v48 (F := Ideal) (W main_arg4) (ix1 r) := by
  show StableHlo.after hostOps0 _ (Proc.devRef .tc main_v56) _ = _
  after_results_simp
  refine (shapeCast_a_a1_apply _ _ r 0).trans ?_
  rfl

set_option maxHeartbeats 4000000 in
/-- The number of paper-to-dataset edges into a dataset node. -/
theorem host_v41 (r : Fin 5000) : A main_v41 (ix2 r 0) = Cert.ReferenceIdeal.Read.val_main_v80 (F := Ideal) (W main_arg3) (ix1 r) := by
  show StableHlo.after hostOps0 _ (Proc.devRef .tc main_v41) _ = _
  after_results_simp
  refine (shapeCast_a_a1_apply _ _ r 0).trans ?_
  rfl

/-! ## The node features: no host operation writes them -/

set_option maxHeartbeats 4000000 in
theorem host_arg0 : A main_arg0 = W main_arg0 := by
  show StableHlo.after hostOps0 _ (Proc.devRef .tc main_arg0) = _
  after_results_simp

set_option maxHeartbeats 4000000 in
theorem host_arg1 : A main_arg1 = W main_arg1 := by
  show StableHlo.after hostOps0 _ (Proc.devRef .tc main_arg1) = _
  after_results_simp

/-! ## The transposed [512, 512] weights (the narrowing of the element type is the identity on the extended reals) -/

set_option maxHeartbeats 4000000 in
theorem host_v58 (k j : Fin 512) : A main_v58 (ix2 k j) = W main_arg5 (ix2 j k) := by
  show StableHlo.after hostOps0 _ (Proc.devRef .tc main_v58) _ = _
  after_results_simp
  exact transpose_ix2_apply _ _ k j

set_option maxHeartbeats 4000000 in
theorem host_v60 (k j : Fin 512) : A main_v60 (ix2 k j) = W main_arg6 (ix2 j k) := by
  show StableHlo.after hostOps0 _ (Proc.devRef .tc main_v60) _ = _
  after_results_simp
  exact transpose_ix2_apply _ _ k j

set_option maxHeartbeats 4000000 in
theorem host_v66 (k j : Fin 512) : A main_v66 (ix2 k j) = W main_arg11 (ix2 j k) := by
  show StableHlo.after hostOps0 _ (Proc.devRef .tc main_v66) _ = _
  after_results_simp
  exact transpose_ix2_apply _ _ k j

set_option maxHeartbeats 4000000 in
theorem host_v68 (k j : Fin 512) : A main_v68 (ix2 k j) = W main_arg12 (ix2 j k) := by
  show StableHlo.after hostOps0 _ (Proc.devRef .tc main_v68) _ = _
  after_results_simp
  exact transpose_ix2_apply _ _ k j

set_option maxHeartbeats 4000000 in
theorem host_v62 (k j : Fin 512) : A main_v62 (ix2 k j) = W main_arg8 (ix2 j k) := by
  show StableHlo.after hostOps0 _ (Proc.devRef .tc main_v62) _ = _
  after_results_simp
  exact transpose_ix2_apply _ _ k j

set_option maxHeartbeats 4000000 in
theorem host_v64 (k j : Fin 512) : A main_v64 (ix2 k j) = W main_arg9 (ix2 j k) := by
  show StableHlo.after hostOps0 _ (Proc.devRef .tc main_v64) _ = _
  after_results_simp
  exact transpose_ix2_apply _ _ k j

/-! ## The biases as one-row arrays -/

set_option maxHeartbeats 4000000 in
theorem host_v79 (j : Fin 512) : A main_v79 (ix2 0 j) = W main_arg7 (ix1 j) := by
  show StableHlo.after hostOps0 _ (Proc.devRef .tc main_v79) _ = _
  after_results_simp
  exact shapeCast_a_1a_apply _ _ 0 j

set_option maxHeartbeats 4000000 in
theorem host_v80 (j : Fin 512) : A main_v80 (ix2 0 j) = W main_arg13 (ix1 j) := by
  show StableHlo.after hostOps0 _ (Proc.devRef .tc main_v80) _ = _
  after_results_simp
  exact shapeCast_a_1a_apply _ _ 0 j

set_option maxHeartbeats 4000000 in
theorem host_v81 (j : Fin 512) : A main_v81 (ix2 0 j) = W main_arg10 (ix1 j) := by
  show StableHlo.after hostOps0 _ (Proc.devRef .tc main_v81) _ = _
  after_results_simp
  exact shapeCast_a_1a_apply _ _ 0 j

set_option maxHeartbeats 4000000 in
theorem host_v82 (j : Fin 512) : A main_v82 (ix2 0 j) = W main_arg15 (ix1 j) := by
  show StableHlo.after hostOps0 _ (Proc.devRef .tc main_v82) _ = _
  after_results_simp
  exact shapeCast_a_1a_apply _ _ 0 j

set_option maxHeartbeats 4000000 in
theorem host_v83 (j : Fin 512) : A main_v83 (ix2 0 j) = W main_arg17 (ix1 j) := by
  show StableHlo.after hostOps0 _ (Proc.devRef .tc main_v83) _ = _
  after_results_simp
  exact shapeCast_a_1a_apply _ _ 0 j

/-! ## The two halves of each transposed decoder matrix: its input features 0 … 511 and 512 … 1023 -/

set_option maxHeartbeats 4000000 in
theorem host_v71 (k j : Fin 512) : A main_v71 (ix2 k j) = W main_arg14 (ix2 j (Cert.Spec.lo k)) := by
  show StableHlo.after hostOps0 _ (Proc.devRef .tc main_v71) _ = _
  after_results_simp
  refine (truncf_apply (φ := .f32) (ψ := .bf16) _ bitsLt_bf16_f32 (ix2 k j)).trans ?_
  refine (slice2_axis0_apply 0 _ _ k j (Cert.Spec.lo k) (Nat.zero_add _).symm).trans ?_
  exact transpose_ix2_apply _ _ _ _

set_option maxHeartbeats 4000000 in
theorem host_v73 (k j : Fin 512) : A main_v73 (ix2 k j) = W main_arg14 (ix2 j (Cert.Spec.hi k)) := by
  show StableHlo.after hostOps0 _ (Proc.devRef .tc main_v73) _ = _
  after_results_simp
  refine (truncf_apply (φ := .f32) (ψ := .bf16) _ bitsLt_bf16_f32 (ix2 k j)).trans ?_
  refine (slice2_axis0_apply 512 _ _ k j (Cert.Spec.hi k) rfl).trans ?_
  exact transpose_ix2_apply _ _ _ _

set_option maxHeartbeats 4000000 in
theorem host_v76 (k j : Fin 512) : A main_v76 (ix2 k j) = W main_arg16 (ix2 j (Cert.Spec.lo k)) := by
  show StableHlo.after hostOps0 _ (Proc.devRef .tc main_v76) _ = _
  after_results_simp
  refine (truncf_apply (φ := .f32) (ψ := .bf16) _ bitsLt_bf16_f32 (ix2 k j)).trans ?_
  refine (slice2_axis0_apply 0 _ _ k j (Cert.Spec.lo k) (Nat.zero_add _).symm).trans ?_
  exact transpose_ix2_apply _ _ _ _

set_option maxHeartbeats 4000000 in
theorem host_v78 (k j : Fin 512) : A main_v78 (ix2 k j) = W main_arg16 (ix2 j (Cert.Spec.hi k)) := by
  show StableHlo.after hostOps0 _ (Proc.devRef .tc main_v78) _ = _
  after_results_simp
  refine (truncf_apply (φ := .f32) (ψ := .bf16) _ bitsLt_bf16_f32 (ix2 k j)).trans ?_
  refine (slice2_axis0_apply 512 _ _ k j (Cert.Spec.hi k) rfl).trans ?_
  exact transpose_ix2_apply _ _ _ _

end Cert.KHost

end
-- ==== Proof.RefSide.lean ====
/-
  The reference program's two results, read one node (row) and one feature at a time.

  Each result element is traced back through the reference's operations: the clamped count and the mean
  of the incoming messages, the two products with transposed weights and the bias of a convolution, the
  squared Euclidean norm of a row as a sum over its 512 features, the division by the clamped norm, the
  concatenation of the normalised encoding with the normalised raw features, and the decoder's product
  with the transposed [512, 1024] matrix plus its bias.  The message sums and the message counts (the
  results of the scatter-additions) are never opened: the statements hold for whatever arrays they are.
-/
import proofs.«137761_j84894323573132_2_alg».proof.Proof.Gen.ReferenceIdeal.Read
import proofs.«137761_j84894323573132_2_alg».proof.Proof.Spec
import Idealize.ShloMosaic.Lib.Pipeline.Value
import Idealize.ShloMosaic.Lib.ValueIdx
import Idealize.ShloMosaic.PureOps.Ideal.Laws

noncomputable section

open scoped BigOperators

namespace Cert.RefSide

open Cert.ReferenceIdeal Cert.ReferenceIdeal.Gen Idealize.ShloMosaic Idealize.ShloMosaic.TcCoe Idealize.SL.Sem
  Idealize.ShloMosaic.StableHlo Idealize.ShloMosaic.ValueIdx

variable (x0 : (⟨S50000x512, .f32⟩ : BufTy).Contents (Elt Ideal)) (x1 : (⟨S5000x512, .f32⟩ : BufTy).Contents (Elt Ideal))
  (x2 : (⟨S2x150000, .i32⟩ : BufTy).Contents (Elt Ideal)) (x3 x4 : (⟨S2x100000, .i32⟩ : BufTy).Contents (Elt Ideal))
  (x5 x6 : (⟨S512x512, .f32⟩ : BufTy).Contents (Elt Ideal)) (x7 : (⟨S512, .f32⟩ : BufTy).Contents (Elt Ideal))
  (x8 x9 : (⟨S512x512, .f32⟩ : BufTy).Contents (Elt Ideal)) (x10 : (⟨S512, .f32⟩ : BufTy).Contents (Elt Ideal))
  (x11 x12 : (⟨S512x512, .f32⟩ : BufTy).Contents (Elt Ideal)) (x13 : (⟨S512, .f32⟩ : BufTy).Contents (Elt Ideal))
  (x14 : (⟨S512x1024, .f32⟩ : BufTy).Contents (Elt Ideal)) (x15 : (⟨S512, .f32⟩ : BufTy).Contents (Elt Ideal))
  (x16 : (⟨S512x1024, .f32⟩ : BufTy).Contents (Elt Ideal)) (x17 : (⟨S512, .f32⟩ : BufTy).Contents (Elt Ideal))

/-! ## Index equations: the reference's composed index maps at a node and a feature -/

/-! ## The convolution over the edges from paper nodes into a dataset node -/

/-- The message count clamped to at least one, as spread over a row. -/
theorem pd_cnt (r : Fin 5000) (k : Fin 512) :
    Read.val_main_v84 (F := Ideal) x3 (ix2 r k) = max (Read.val_main_v80 (F := Ideal) x3 (ix1 r)) Spec.one := by
  have e : Read.idx_main_v83 (Read.idx_main_v84 (ix2 r k)) = ix1 r := funext fun a => Fin.ext (by match a with | ⟨0, _⟩ => rfl)
  rw [Read.val_main_v84_apply, Read.val_main_v83_apply, e, Read.val_main_v82_apply, Read.val_main_v81_apply,
    Read.val_main_cst_15_apply]
  rfl

/-- The mean of the incoming messages. -/
theorem pd_mean (r : Fin 5000) (k : Fin 512) :
    Read.val_main_v85 (F := Ideal) x0 x3 (ix2 r k) = Spec.mean (Spec.rowOf (Read.val_main_v76 (F := Ideal) x0 x3) r) (Read.val_main_v80 (F := Ideal) x3 (ix1 r)) k := by
  rw [Read.val_main_v85_apply, pd_cnt]
  rfl

/-- The mean times the transposed neighbour weights. -/
theorem pd_linMean (r : Fin 5000) (j : Fin 512) :
    Read.val_main_v87 (F := Ideal) x0 x3 x9 (ix2 r j) = Spec.lin (Spec.mean (Spec.rowOf (Read.val_main_v76 (F := Ideal) x0 x3) r) (Read.val_main_v80 (F := Ideal) x3 (ix1 r))) (Spec.mat x9) j := by
  rw [Read.val_main_v87_apply]
  unfold Spec.lin
  refine Finset.sum_congr rfl fun k _ => ?_
  have el : Read.lidx_main_v87 (ix2 r j) k = ix2 r k := funext fun a => Fin.ext (by match a with | ⟨0, _⟩ => rfl | ⟨1, _⟩ => rfl)
  have er : Read.ridx_main_v87 (ix2 r j) k = ix2 k j := funext fun a => Fin.ext (by match a with | ⟨0, _⟩ => rfl | ⟨1, _⟩ => rfl)
  have et : Read.idx_main_v86 (ix2 k j) = ix2 j k := funext fun a => Fin.ext (by match a with | ⟨0, _⟩ => rfl | ⟨1, _⟩ => rfl)
  rw [el, er, pd_mean, Read.val_main_v86_apply, et]
  rfl

/-- The node's own features times the transposed self weights. -/
theorem pd_linSelf (r : Fin 5000) (j : Fin 512) :
    Read.val_main_v89 (F := Ideal) x1 x8 (ix2 r j) = Spec.lin (Spec.rowOf x1 r) (Spec.mat x8) j := by
  rw [Read.val_main_v89_apply]
  unfold Spec.lin
  refine Finset.sum_congr rfl fun k _ => ?_
  have el : Read.lidx_main_v89 (ix2 r j) k = ix2 r k := funext fun a => Fin.ext (by match a with | ⟨0, _⟩ => rfl | ⟨1, _⟩ => rfl)
  have er : Read.ridx_main_v89 (ix2 r j) k = ix2 k j := funext fun a => Fin.ext (by match a with | ⟨0, _⟩ => rfl | ⟨1, _⟩ => rfl)
  have et : Read.idx_main_v88 (ix2 k j) = ix2 j k := funext fun a => Fin.ext (by match a with | ⟨0, _⟩ => rfl | ⟨1, _⟩ => rfl)
  rw [el, er, Read.val_main_v88_apply, et]
  rfl

/-- The convolution: the two products and the bias. -/
theorem pd_conv (r : Fin 5000) (j : Fin 512) :
    Read.val_main_v93 (F := Ideal) x0 x1 x3 x8 x9 x10 (ix2 r j) = (Spec.conv (Spec.rowOf (Read.val_main_v76 (F := Ideal) x0 x3) r) (Read.val_main_v80 (F := Ideal) x3 (ix1 r)) (Spec.rowOf x1 r) (Spec.mat x8) (Spec.mat x9) (Spec.vec x10)) j := by
  have eb : Read.idx_main_v91 (Read.idx_main_v92 (ix2 r j)) = ix1 j := funext fun a => Fin.ext (by match a with | ⟨0, _⟩ => rfl)
  rw [Read.val_main_v93_apply, Read.val_main_v90_apply, pd_linMean, pd_linSelf, Read.val_main_v92_apply,
    Read.val_main_v91_apply, eb]
  rfl

/-! ## The Euclidean normalisation of a dataset node's encoding -/

/-- The squared norm of the row: the reduction's initial value is the zero word. -/
theorem pdE_sq (r : Fin 5000) :
    Read.val_main_v103 (F := Ideal) x0 x1 x3 x8 x9 x10 (ix1 r) = ∑ k : Fin 512, (Spec.conv (Spec.rowOf (Read.val_main_v76 (F := Ideal) x0 x3) r) (Read.val_main_v80 (F := Ideal) x3 (ix1 r)) (Spec.rowOf x1 r) (Spec.mat x8) (Spec.mat x9) (Spec.vec x10)) k * (Spec.conv (Spec.rowOf (Read.val_main_v76 (F := Ideal) x0 x3) r) (Read.val_main_v80 (F := Ideal) x3 (ix1 r)) (Spec.rowOf x1 r) (Spec.mat x8) (Spec.mat x9) (Spec.vec x10)) k := by
  rw [Read.val_main_v103_apply, Read.val_main_cst_18_apply, Ideal.ofBits_def, Ideal.ofBits_zero_f32, zero_add]
  refine Finset.sum_congr rfl fun k _ => ?_
  have e : Read.idx_main_v103 (ix1 r) k = ix2 r k := funext fun a => Fin.ext (by match a with | ⟨0, _⟩ => rfl | ⟨1, _⟩ => rfl)
  rw [e, Read.val_main_v102_apply, pd_conv]
  rfl

/-- The row over its norm, the norm clamped from below. -/
theorem pdE_l2n (r : Fin 5000) (k : Fin 512) :
    Read.val_main_v109 (F := Ideal) x0 x1 x3 x8 x9 x10 (ix2 r k) = Spec.l2n (Spec.conv (Spec.rowOf (Read.val_main_v76 (F := Ideal) x0 x3) r) (Read.val_main_v80 (F := Ideal) x3 (ix1 r)) (Spec.rowOf x1 r) (Spec.mat x8) (Spec.mat x9) (Spec.vec x10)) k := by
  have e : Read.idx_main_v104 (Read.idx_main_v108 (ix2 r k)) = ix1 r := funext fun a => Fin.ext (by match a with | ⟨0, _⟩ => rfl)
  rw [Read.val_main_v109_apply, pd_conv, Read.val_main_v108_apply, Read.val_main_v107_apply, Read.val_main_v105_apply,
    Read.val_main_v104_apply, e, pdE_sq, Read.val_main_v106_apply, Read.val_main_cst_19_apply]
  simp only [Spec.l2n, Ideal.hostDivf_def, Ideal.maximumf_def, Ideal.hostUnary_sqrt_def, Ideal.ofBits_def]

/-! ## The Euclidean normalisation of a dataset node's raw features -/

/-- The squared norm of the row: the reduction's initial value is the zero word. -/
theorem dX_sq (r : Fin 5000) :
    Read.val_main_v119 (F := Ideal) x1 (ix1 r) = ∑ k : Fin 512, (Spec.rowOf x1 r) k * (Spec.rowOf x1 r) k := by
  rw [Read.val_main_v119_apply, Read.val_main_cst_22_apply, Ideal.ofBits_def, Ideal.ofBits_zero_f32, zero_add]
  refine Finset.sum_congr rfl fun k _ => ?_
  have e : Read.idx_main_v119 (ix1 r) k = ix2 r k := funext fun a => Fin.ext (by match a with | ⟨0, _⟩ => rfl | ⟨1, _⟩ => rfl)
  rw [e, Read.val_main_v118_apply]
  rfl

/-- The row over its norm, the norm clamped from below. -/
theorem dX_l2n (r : Fin 5000) (k : Fin 512) :
    Read.val_main_v125 (F := Ideal) x1 (ix2 r k) = Spec.l2n (Spec.rowOf x1 r) k := by
  have e : Read.idx_main_v120 (Read.idx_main_v124 (ix2 r k)) = ix1 r := funext fun a => Fin.ext (by match a with | ⟨0, _⟩ => rfl)
  rw [Read.val_main_v125_apply, Read.val_main_v124_apply, Read.val_main_v123_apply, Read.val_main_v121_apply,
    Read.val_main_v120_apply, e, dX_sq, Read.val_main_v122_apply, Read.val_main_cst_23_apply]
  rfl

/-! ## The decoder of a dataset node -/

/-- The concatenated row: the normalised encoding, then the normalised raw features. -/
theorem d_cat (r : Fin 5000) (k : Fin 1024) :
    Read.val_main_v132 (F := Ideal) x0 x1 x3 x8 x9 x10 (ix2 r k) = Spec.cat (Spec.l2n (Spec.conv (Spec.rowOf (Read.val_main_v76 (F := Ideal) x0 x3) r) (Read.val_main_v80 (F := Ideal) x3 (ix1 r)) (Spec.rowOf x1 r) (Spec.mat x8) (Spec.mat x9) (Spec.vec x10))) (Spec.l2n (Spec.rowOf x1 r)) k := by
  unfold Read.val_main_v132 Spec.cat
  by_cases h : k.val < 512
  · rw [dif_pos h, concatenate_pair_apply_left (s₁ := S5000x512) (s₂ := S5000x512) 1 _ _ _ (ix2 r k) rfl (ix2 r (⟨k.val, h⟩ : Fin 512))
      (fun b => by match b with | ⟨0, _⟩ => rfl | ⟨1, _⟩ => rfl), pdE_l2n]
  · rw [dif_neg h, concatenate_pair_apply_right (s₁ := S5000x512) (s₂ := S5000x512) 1 _ _ _ (ix2 r k) rfl rfl
      (ix2 r (⟨k.val - 512, by have := k.isLt; omega⟩ : Fin 512))
      (fun b hb => by match b with | ⟨0, _⟩ => rfl | ⟨1, _⟩ => exact absurd rfl hb)
      (by show k.val - 512 + 512 = k.val; omega), dX_l2n]

/-- The reference's dataset embedding at a node and a feature is the specification's, in the reference's arrangement, of the message sums and counts it scattered. -/
theorem ref_dataset (x0 : (⟨S50000x512, .f32⟩ : BufTy).Contents (Elt Ideal)) (x1 : (⟨S5000x512, .f32⟩ : BufTy).Contents (Elt Ideal)) (x3 : (⟨S2x100000, .i32⟩ : BufTy).Contents (Elt Ideal))
    (x8 x9 : (⟨S512x512, .f32⟩ : BufTy).Contents (Elt Ideal)) (x10 : (⟨S512, .f32⟩ : BufTy).Contents (Elt Ideal)) (x16 : (⟨S512x1024, .f32⟩ : BufTy).Contents (Elt Ideal)) (x17 : (⟨S512, .f32⟩ : BufTy).Contents (Elt Ideal)) (r : Fin 5000) (j : Fin 512) :
    Read.val_main_v137 (F := Ideal) x0 x1 x3 x8 x9 x10 x16 x17 (ValueIdx.ix2 r j)
      = Cert.Spec.datasetAtRef (Read.val_main_v76 (F := Ideal) x0 x3) (Read.val_main_v80 (F := Ideal) x3) x1 x8 x9 x10 x16 x17 r j := by
  have eb : Read.idx_main_v135 (Read.idx_main_v136 (ix2 r j)) = ix1 j := funext fun a => Fin.ext (by match a with | ⟨0, _⟩ => rfl)
  rw [Read.val_main_v137_apply, Read.val_main_v134_apply, Read.val_main_v136_apply, Read.val_main_v135_apply, eb]
  unfold Spec.datasetAtRef Spec.decCat
  refine congrArg₂ (· + ·) (Finset.sum_congr rfl fun k _ => ?_) rfl
  have el : Read.lidx_main_v134 (ix2 r j) k = ix2 r k := funext fun a => Fin.ext (by match a with | ⟨0, _⟩ => rfl | ⟨1, _⟩ => rfl)
  have er : Read.ridx_main_v134 (ix2 r j) k = ix2 k j := funext fun a => Fin.ext (by match a with | ⟨0, _⟩ => rfl | ⟨1, _⟩ => rfl)
  have et : Read.idx_main_v133 (ix2 k j) = ix2 j k := funext fun a => Fin.ext (by match a with | ⟨0, _⟩ => rfl | ⟨1, _⟩ => rfl)
  rw [el, er, d_cat, Read.val_main_v133_apply, et]
  rfl

/-! ## The convolution over the edges from paper nodes into a paper node -/

/-- The message count clamped to at least one, as spread over a row. -/
theorem pp_cnt (r : Fin 50000) (k : Fin 512) :
    Read.val_main_v21 (F := Ideal) x2 (ix2 r k) = max (Read.val_main_v17 (F := Ideal) x2 (ix1 r)) Spec.one := by
  have e : Read.idx_main_v20 (Read.idx_main_v21 (ix2 r k)) = ix1 r := funext fun a => Fin.ext (by match a with | ⟨0, _⟩ => rfl)
  rw [Read.val_main_v21_apply, Read.val_main_v20_apply, e, Read.val_main_v19_apply, Read.val_main_v18_apply,
    Read.val_main_cst_3_apply]
  rfl

/-- The mean of the incoming messages. -/
theorem pp_mean (r : Fin 50000) (k : Fin 512) :
    Read.val_main_v22 (F := Ideal) x0 x2 (ix2 r k) = Spec.mean (Spec.rowOf (Read.val_main_v13 (F := Ideal) x0 x2) r) (Read.val_main_v17 (F := Ideal) x2 (ix1 r)) k := by
  rw [Read.val_main_v22_apply, pp_cnt]
  rfl

/-- The mean times the transposed neighbour weights. -/
theorem pp_linMean (r : Fin 50000) (j : Fin 512) :
    Read.val_main_v24 (F := Ideal) x0 x2 x6 (ix2 r j) = Spec.lin (Spec.mean (Spec.rowOf (Read.val_main_v13 (F := Ideal) x0 x2) r) (Read.val_main_v17 (F := Ideal) x2 (ix1 r))) (Spec.mat x6) j := by
  rw [Read.val_main_v24_apply]
  unfold Spec.lin
  refine Finset.sum_congr rfl fun k _ => ?_
  have el : Read.lidx_main_v24 (ix2 r j) k = ix2 r k := funext fun a => Fin.ext (by match a with | ⟨0, _⟩ => rfl | ⟨1, _⟩ => rfl)
  have er : Read.ridx_main_v24 (ix2 r j) k = ix2 k j := funext fun a => Fin.ext (by match a with | ⟨0, _⟩ => rfl | ⟨1, _⟩ => rfl)
  have et : Read.idx_main_v23 (ix2 k j) = ix2 j k := funext fun a => Fin.ext (by match a with | ⟨0, _⟩ => rfl | ⟨1, _⟩ => rfl)
  rw [el, er, pp_mean, Read.val_main_v23_apply, et]
  rfl

/-- The node's own features times the transposed self weights. -/
theorem pp_linSelf (r : Fin 50000) (j : Fin 512) :
    Read.val_main_v26 (F := Ideal) x0 x5 (ix2 r j) = Spec.lin (Spec.rowOf x0 r) (Spec.mat x5) j := by
  rw [Read.val_main_v26_apply]
  unfold Spec.lin
  refine Finset.sum_congr rfl fun k _ => ?_
  have el : Read.lidx_main_v26 (ix2 r j) k = ix2 r k := funext fun a => Fin.ext (by match a with | ⟨0, _⟩ => rfl | ⟨1, _⟩ => rfl)
  have er : Read.ridx_main_v26 (ix2 r j) k = ix2 k j := funext fun a => Fin.ext (by match a with | ⟨0, _⟩ => rfl | ⟨1, _⟩ => rfl)
  have et : Read.idx_main_v25 (ix2 k j) = ix2 j k := funext fun a => Fin.ext (by match a with | ⟨0, _⟩ => rfl | ⟨1, _⟩ => rfl)
  rw [el, er, Read.val_main_v25_apply, et]
  rfl

/-- The convolution: the two products and the bias. -/
theorem pp_conv (r : Fin 50000) (j : Fin 512) :
    Read.val_main_v30 (F := Ideal) x0 x2 x5 x6 x7 (ix2 r j) = (Spec.conv (Spec.rowOf (Read.val_main_v13 (F := Ideal) x0 x2) r) (Read.val_main_v17 (F := Ideal) x2 (ix1 r)) (Spec.rowOf x0 r) (Spec.mat x5) (Spec.mat x6) (Spec.vec x7)) j := by
  have eb : Read.idx_main_v28 (Read.idx_main_v29 (ix2 r j)) = ix1 j := funext fun a => Fin.ext (by match a with | ⟨0, _⟩ => rfl)
  rw [Read.val_main_v30_apply, Read.val_main_v27_apply, pp_linMean, pp_linSelf, Read.val_main_v29_apply,
    Read.val_main_v28_apply, eb]
  rfl

/-! ## The convolution over the edges from dataset nodes into a paper node -/

/-- The message count clamped to at least one, as spread over a row. -/
theorem dp_cnt (r : Fin 50000) (k : Fin 512) :
    Read.val_main_v52 (F := Ideal) x4 (ix2 r k) = max (Read.val_main_v48 (F := Ideal) x4 (ix1 r)) Spec.one := by
  have e : Read.idx_main_v51 (Read.idx_main_v52 (ix2 r k)) = ix1 r := funext fun a => Fin.ext (by match a with | ⟨0, _⟩ => rfl)
  rw [Read.val_main_v52_apply, Read.val_main_v51_apply, e, Read.val_main_v50_apply, Read.val_main_v49_apply,
    Read.val_main_cst_9_apply]
  rfl

/-- The mean of the incoming messages. -/
theorem dp_mean (r : Fin 50000) (k : Fin 512) :
    Read.val_main_v53 (F := Ideal) x1 x4 (ix2 r k) = Spec.mean (Spec.rowOf (Read.val_main_v44 (F := Ideal) x1 x4) r) (Read.val_main_v48 (F := Ideal) x4 (ix1 r)) k := by
  rw [Read.val_main_v53_apply, dp_cnt]
  rfl

/-- The mean times the transposed neighbour weights. -/
theorem dp_linMean (r : Fin 50000) (j : Fin 512) :
    Read.val_main_v55 (F := Ideal) x1 x4 x12 (ix2 r j) = Spec.lin (Spec.mean (Spec.rowOf (Read.val_main_v44 (F := Ideal) x1 x4) r) (Read.val_main_v48 (F := Ideal) x4 (ix1 r))) (Spec.mat x12) j := by
  rw [Read.val_main_v55_apply]
  unfold Spec.lin
  refine Finset.sum_congr rfl fun k _ => ?_
  have el : Read.lidx_main_v55 (ix2 r j) k = ix2 r k := funext fun a => Fin.ext (by match a with | ⟨0, _⟩ => rfl | ⟨1, _⟩ => rfl)
  have er : Read.ridx_main_v55 (ix2 r j) k = ix2 k j := funext fun a => Fin.ext (by match a with | ⟨0, _⟩ => rfl | ⟨1, _⟩ => rfl)
  have et : Read.idx_main_v54 (ix2 k j) = ix2 j k := funext fun a => Fin.ext (by match a with | ⟨0, _⟩ => rfl | ⟨1, _⟩ => rfl)
  rw [el, er, dp_mean, Read.val_main_v54_apply, et]
  rfl

/-- The node's own features times the transposed self weights. -/
theorem dp_linSelf (r : Fin 50000) (j : Fin 512) :
    Read.val_main_v57 (F := Ideal) x0 x11 (ix2 r j) = Spec.lin (Spec.rowOf x0 r) (Spec.mat x11) j := by
  rw [Read.val_main_v57_apply]
  unfold Spec.lin
  refine Finset.sum_congr rfl fun k _ => ?_
  have el : Read.lidx_main_v57 (ix2 r j) k = ix2 r k := funext fun a => Fin.ext (by match a with | ⟨0, _⟩ => rfl | ⟨1, _⟩ => rfl)
  have er : Read.ridx_main_v57 (ix2 r j) k = ix2 k j := funext fun a => Fin.ext (by match a with | ⟨0, _⟩ => rfl | ⟨1, _⟩ => rfl)
  have et : Read.idx_main_v56 (ix2 k j) = ix2 j k := funext fun a => Fin.ext (by match a with | ⟨0, _⟩ => rfl | ⟨1, _⟩ => rfl)
  rw [el, er, Read.val_main_v56_apply, et]
  rfl

/-- The convolution: the two products and the bias. -/
theorem dp_conv (r : Fin 50000) (j : Fin 512) :
    Read.val_main_v61 (F := Ideal) x0 x1 x4 x11 x12 x13 (ix2 r j) = (Spec.conv (Spec.rowOf (Read.val_main_v44 (F := Ideal) x1 x4) r) (Read.val_main_v48 (F := Ideal) x4 (ix1 r)) (Spec.rowOf x0 r) (Spec.mat x11) (Spec.mat x12) (Spec.vec x13)) j := by
  have eb : Read.idx_main_v59 (Read.idx_main_v60 (ix2 r j)) = ix1 j := funext fun a => Fin.ext (by match a with | ⟨0, _⟩ => rfl)
  rw [Read.val_main_v61_apply, Read.val_main_v58_apply, dp_linMean, dp_linSelf, Read.val_main_v60_apply,
    Read.val_main_v59_apply, eb]
  rfl

/-! ## A paper node's encoding: the sum of its two convolutions -/

theorem p_enc (r : Fin 50000) (j : Fin 512) :
    Read.val_main_v62 (F := Ideal) x0 x1 x2 x4 x5 x6 x7 x11 x12 x13 (ix2 r j) = (Spec.encPair (Spec.rowOf (Read.val_main_v13 (F := Ideal) x0 x2) r) (Read.val_main_v17 (F := Ideal) x2 (ix1 r)) (Spec.rowOf (Read.val_main_v44 (F := Ideal) x1 x4) r) (Read.val_main_v48 (F := Ideal) x4 (ix1 r)) (Spec.rowOf x0 r) (Spec.mat x5) (Spec.mat x6) (Spec.vec x7) (Spec.mat x11) (Spec.mat x12) (Spec.vec x13)) j := by
  rw [Read.val_main_v62_apply, pp_conv, dp_conv]
  rfl

/-! ## The Euclidean normalisation of a paper node's encoding -/

/-- The squared norm of the row: the reduction's initial value is the zero word. -/
theorem pE_sq (r : Fin 50000) :
    Read.val_main_v95 (F := Ideal) x0 x1 x2 x4 x5 x6 x7 x11 x12 x13 (ix1 r) = ∑ k : Fin 512, (Spec.encPair (Spec.rowOf (Read.val_main_v13 (F := Ideal) x0 x2) r) (Read.val_main_v17 (F := Ideal) x2 (ix1 r)) (Spec.rowOf (Read.val_main_v44 (F := Ideal) x1 x4) r) (Read.val_main_v48 (F := Ideal) x4 (ix1 r)) (Spec.rowOf x0 r) (Spec.mat x5) (Spec.mat x6) (Spec.vec x7) (Spec.mat x11) (Spec.mat x12) (Spec.vec x13)) k * (Spec.encPair (Spec.rowOf (Read.val_main_v13 (F := Ideal) x0 x2) r) (Read.val_main_v17 (F := Ideal) x2 (ix1 r)) (Spec.rowOf (Read.val_main_v44 (F := Ideal) x1 x4) r) (Read.val_main_v48 (F := Ideal) x4 (ix1 r)) (Spec.rowOf x0 r) (Spec.mat x5) (Spec.mat x6) (Spec.vec x7) (Spec.mat x11) (Spec.mat x12) (Spec.vec x13)) k := by
  rw [Read.val_main_v95_apply, Read.val_main_cst_16_apply, Ideal.ofBits_def, Ideal.ofBits_zero_f32, zero_add]
  refine Finset.sum_congr rfl fun k _ => ?_
  have e : Read.idx_main_v95 (ix1 r) k = ix2 r k := funext fun a => Fin.ext (by match a with | ⟨0, _⟩ => rfl | ⟨1, _⟩ => rfl)
  rw [e, Read.val_main_v94_apply, p_enc]
  rfl

/-- The row over its norm, the norm clamped from below. -/
theorem pE_l2n (r : Fin 50000) (k : Fin 512) :
    Read.val_main_v101 (F := Ideal) x0 x1 x2 x4 x5 x6 x7 x11 x12 x13 (ix2 r k) = Spec.l2n (Spec.encPair (Spec.rowOf (Read.val_main_v13 (F := Ideal) x0 x2) r) (Read.val_main_v17 (F := Ideal) x2 (ix1 r)) (Spec.rowOf (Read.val_main_v44 (F := Ideal) x1 x4) r) (Read.val_main_v48 (F := Ideal) x4 (ix1 r)) (Spec.rowOf x0 r) (Spec.mat x5) (Spec.mat x6) (Spec.vec x7) (Spec.mat x11) (Spec.mat x12) (Spec.vec x13)) k := by
  have e : Read.idx_main_v96 (Read.idx_main_v100 (ix2 r k)) = ix1 r := funext fun a => Fin.ext (by match a with | ⟨0, _⟩ => rfl)
  rw [Read.val_main_v101_apply, p_enc, Read.val_main_v100_apply, Read.val_main_v99_apply, Read.val_main_v97_apply,
    Read.val_main_v96_apply, e, pE_sq, Read.val_main_v98_apply, Read.val_main_cst_17_apply]
  simp only [Spec.l2n, Ideal.hostDivf_def, Ideal.maximumf_def, Ideal.hostUnary_sqrt_def, Ideal.ofBits_def]

/-! ## The Euclidean normalisation of a paper node's raw features -/

/-- The squared norm of the row: the reduction's initial value is the zero word. -/
theorem pX_sq (r : Fin 50000) :
    Read.val_main_v111 (F := Ideal) x0 (ix1 r) = ∑ k : Fin 512, (Spec.rowOf x0 r) k * (Spec.rowOf x0 r) k := by
  rw [Read.val_main_v111_apply, Read.val_main_cst_20_apply, Ideal.ofBits_def, Ideal.ofBits_zero_f32, zero_add]
  refine Finset.sum_congr rfl fun k _ => ?_
  have e : Read.idx_main_v111 (ix1 r) k = ix2 r k := funext fun a => Fin.ext (by match a with | ⟨0, _⟩ => rfl | ⟨1, _⟩ => rfl)
  rw [e, Read.val_main_v110_apply]
  rfl

/-- The row over its norm, the norm clamped from below. -/
theorem pX_l2n (r : Fin 50000) (k : Fin 512) :
    Read.val_main_v117 (F := Ideal) x0 (ix2 r k) = Spec.l2n (Spec.rowOf x0 r) k := by
  have e : Read.idx_main_v112 (Read.idx_main_v116 (ix2 r k)) = ix1 r := funext fun a => Fin.ext (by match a with | ⟨0, _⟩ => rfl)
  rw [Read.val_main_v117_apply, Read.val_main_v116_apply, Read.val_main_v115_apply, Read.val_main_v113_apply,
    Read.val_main_v112_apply, e, pX_sq, Read.val_main_v114_apply, Read.val_main_cst_21_apply]
  rfl

/-! ## The decoder of a paper node -/

/-- The concatenated row: the normalised encoding, then the normalised raw features. -/
theorem p_cat (r : Fin 50000) (k : Fin 1024) :
    Read.val_main_v126 (F := Ideal) x0 x1 x2 x4 x5 x6 x7 x11 x12 x13 (ix2 r k) = Spec.cat (Spec.l2n (Spec.encPair (Spec.rowOf (Read.val_main_v13 (F := Ideal) x0 x2) r) (Read.val_main_v17 (F := Ideal) x2 (ix1 r)) (Spec.rowOf (Read.val_main_v44 (F := Ideal) x1 x4) r) (Read.val_main_v48 (F := Ideal) x4 (ix1 r)) (Spec.rowOf x0 r) (Spec.mat x5) (Spec.mat x6) (Spec.vec x7) (Spec.mat x11) (Spec.mat x12) (Spec.vec x13))) (Spec.l2n (Spec.rowOf x0 r)) k := by
  unfold Read.val_main_v126 Spec.cat
  by_cases h : k.val < 512
  · rw [dif_pos h, concatenate_pair_apply_left (s₁ := S50000x512) (s₂ := S50000x512) 1 _ _ _ (ix2 r k) rfl (ix2 r (⟨k.val, h⟩ : Fin 512))
      (fun b => by match b with | ⟨0, _⟩ => rfl | ⟨1, _⟩ => rfl), pE_l2n]
  · rw [dif_neg h, concatenate_pair_apply_right (s₁ := S50000x512) (s₂ := S50000x512) 1 _ _ _ (ix2 r k) rfl rfl
      (ix2 r (⟨k.val - 512, by have := k.isLt; omega⟩ : Fin 512))
      (fun b hb => by match b with | ⟨0, _⟩ => rfl | ⟨1, _⟩ => exact absurd rfl hb)
      (by show k.val - 512 + 512 = k.val; omega), pX_l2n]

/-- The reference's paper embedding at a node and a feature is the specification's, in the reference's arrangement, of the message sums and counts it scattered. -/
theorem ref_paper (x0 : (⟨S50000x512, .f32⟩ : BufTy).Contents (Elt Ideal)) (x1 : (⟨S5000x512, .f32⟩ : BufTy).Contents (Elt Ideal)) (x2 : (⟨S2x150000, .i32⟩ : BufTy).Contents (Elt Ideal)) (x4 : (⟨S2x100000, .i32⟩ : BufTy).Contents (Elt Ideal))
    (x5 x6 : (⟨S512x512, .f32⟩ : BufTy).Contents (Elt Ideal)) (x7 : (⟨S512, .f32⟩ : BufTy).Contents (Elt Ideal)) (x11 x12 : (⟨S512x512, .f32⟩ : BufTy).Contents (Elt Ideal)) (x13 : (⟨S512, .f32⟩ : BufTy).Contents (Elt Ideal))
    (x14 : (⟨S512x1024, .f32⟩ : BufTy).Contents (Elt Ideal)) (x15 : (⟨S512, .f32⟩ : BufTy).Contents (Elt Ideal)) (r : Fin 50000) (j : Fin 512) :
    Read.val_main_v131 (F := Ideal) x0 x1 x2 x4 x5 x6 x7 x11 x12 x13 x14 x15 (ValueIdx.ix2 r j)
      = Cert.Spec.paperAtRef (Read.val_main_v13 (F := Ideal) x0 x2) (Read.val_main_v17 (F := Ideal) x2) (Read.val_main_v44 (F := Ideal) x1 x4)
          (Read.val_main_v48 (F := Ideal) x4) x0 x5 x6 x7 x11 x12 x13 x14 x15 r j := by
  have eb : Read.idx_main_v129 (Read.idx_main_v130 (ix2 r j)) = ix1 j := funext fun a => Fin.ext (by match a with | ⟨0, _⟩ => rfl)
  rw [Read.val_main_v131_apply, Read.val_main_v128_apply, Read.val_main_v130_apply, Read.val_main_v129_apply, eb]
  unfold Spec.paperAtRef Spec.decCat
  refine congrArg₂ (· + ·) (Finset.sum_congr rfl fun k _ => ?_) rfl
  have el : Read.lidx_main_v128 (ix2 r j) k = ix2 r k := funext fun a => Fin.ext (by match a with | ⟨0, _⟩ => rfl | ⟨1, _⟩ => rfl)
  have er : Read.ridx_main_v128 (ix2 r j) k = ix2 k j := funext fun a => Fin.ext (by match a with | ⟨0, _⟩ => rfl | ⟨1, _⟩ => rfl)
  have et : Read.idx_main_v127 (ix2 k j) = ix2 j k := funext fun a => Fin.ext (by match a with | ⟨0, _⟩ => rfl | ⟨1, _⟩ => rfl)
  rw [el, er, p_cat, Read.val_main_v127_apply, et]
  rfl

end Cert.RefSide

end
-- ==== Proof.RefArr.lean ====
/-
  The reference's two results as whole arrays: each is the array-level function of `Cert.Spec` (the kernel's
  arrangement) of the argument arrays and of the message sums and counts, which stay whatever the scatter-additions
  make of the edge lists.
-/
import proofs.«137761_j84894323573132_2_alg».proof.Proof.RefSide

noncomputable section

namespace Cert.RefArr

open Cert.ReferenceIdeal Cert.ReferenceIdeal.Gen Idealize.ShloMosaic Idealize.ShloMosaic.TcCoe Idealize.SL.Sem
  Idealize.ShloMosaic.StableHlo Idealize.ShloMosaic.ValueIdx

variable (x0 : (⟨S50000x512, .f32⟩ : BufTy).Contents (Elt Ideal)) (x1 : (⟨S5000x512, .f32⟩ : BufTy).Contents (Elt Ideal))
  (x2 : (⟨S2x150000, .i32⟩ : BufTy).Contents (Elt Ideal)) (x3 x4 : (⟨S2x100000, .i32⟩ : BufTy).Contents (Elt Ideal))
  (x5 x6 : (⟨S512x512, .f32⟩ : BufTy).Contents (Elt Ideal)) (x7 : (⟨S512, .f32⟩ : BufTy).Contents (Elt Ideal))
  (x8 x9 : (⟨S512x512, .f32⟩ : BufTy).Contents (Elt Ideal)) (x10 : (⟨S512, .f32⟩ : BufTy).Contents (Elt Ideal))
  (x11 x12 : (⟨S512x512, .f32⟩ : BufTy).Contents (Elt Ideal)) (x13 : (⟨S512, .f32⟩ : BufTy).Contents (Elt Ideal))
  (x14 : (⟨S512x1024, .f32⟩ : BufTy).Contents (Elt Ideal)) (x15 : (⟨S512, .f32⟩ : BufTy).Contents (Elt Ideal))
  (x16 : (⟨S512x1024, .f32⟩ : BufTy).Contents (Elt Ideal)) (x17 : (⟨S512, .f32⟩ : BufTy).Contents (Elt Ideal))

/-- The paper embedding as a function of the argument arrays. -/
def paperOfArgs : (⟨2, ![50000, 512]⟩ : Shape).Idx → EReal :=
  Cert.Spec.paperArr (Read.val_main_v13 (F := Ideal) x0 x2) (Read.val_main_v17 (F := Ideal) x2)
    (Read.val_main_v44 (F := Ideal) x1 x4) (Read.val_main_v48 (F := Ideal) x4) x0 x5 x6 x7 x11 x12 x13 x14 x15

/-- The dataset embedding as a function of the argument arrays. -/
def datasetOfArgs : (⟨2, ![5000, 512]⟩ : Shape).Idx → EReal :=
  Cert.Spec.datasetArr (Read.val_main_v76 (F := Ideal) x0 x3) (Read.val_main_v80 (F := Ideal) x3) x1 x8 x9 x10 x16 x17

/-- The reference's paper result is that function. -/
theorem ref_paper_arr :
    Read.val_main_v131 (F := Ideal) x0 x1 x2 x4 x5 x6 x7 x11 x12 x13 x14 x15 = paperOfArgs x0 x1 x2 x4 x5 x6 x7 x11 x12 x13 x14 x15 := by
  funext i
  obtain ⟨r, j, rfl⟩ : ∃ (r : Fin 50000) (j : Fin 512), i = ix2 r j := ⟨i 0, i 1, eq_ix2 i⟩
  rw [Cert.RefSide.ref_paper, Cert.Spec.paperAtRef_eq]
  rfl

/-- The reference's dataset result is that function. -/
theorem ref_dataset_arr :
    Read.val_main_v137 (F := Ideal) x0 x1 x3 x8 x9 x10 x16 x17 = datasetOfArgs x0 x1 x3 x8 x9 x10 x16 x17 := by
  funext i
  obtain ⟨r, j, rfl⟩ : ∃ (r : Fin 5000) (j : Fin 512), i = ix2 r j := ⟨i 0, i 1, eq_ix2 i⟩
  rw [Cert.RefSide.ref_dataset, Cert.Spec.datasetAtRef_eq]
  rfl

end Cert.RefArr

end
-- ==== Proof.KValue.lean ====
/-
  The idealized kernel's two results as functions of its arguments.  The paper region finds, in its fifteen arrays,
  what the host stretch prepared from the arguments; the dataset region finds what the host stretch prepared too, because
  the paper region writes none of the dataset region's arrays.  Reading the prepared arrays back (message sums and counts as
  the reference's own scatter-additions, weights transposed, decoder halves, biases as rows) turns each region's
  array-level function into the array-level function of `Cert.Spec` of the argument arrays.
-/
import proofs.«137761_j84894323573132_2_alg».proof.Proof.KRun
import proofs.«137761_j84894323573132_2_alg».proof.Proof.KFlush
import proofs.«137761_j84894323573132_2_alg».proof.Proof.KHost
import proofs.«137761_j84894323573132_2_alg».proof.Proof.RefArr

-- membership in a rectangle of production extents (`View.cover_of_tiled`): the elaborator's structural look
-- recurses once per coordinate of the long axes
set_option maxRecDepth 16384

noncomputable section

namespace Cert.KValue

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec Cert.KBody Cert.KFlush Cert.KHost

variable (m : (ℓ : Loc nD τ sig) → Buf (Elt Ideal) ℓ) (ρ : Dev nD → PrngReg)

set_option maxHeartbeats 4000000 in
/-- The paper region's function of the arrays it finds is the paper embedding of the arguments. -/
theorem paper_value (c : Dev nD) :
    paperArrK (V1 m ρ) c = Cert.RefArr.paperOfArgs (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  funext i
  obtain ⟨r, q, rfl⟩ : ∃ (r : Fin 50000) (q : Fin 512), i = ix2 r q := ⟨i 0, i 1, eq_ix2 i⟩
  show paperK (V1 m ρ) c r q = Cert.Spec.paperAt _ _ _ _ _ _ _ _ _ _ _ _ _ r q
  unfold paperK Cert.Spec.paperAt Cert.Spec.decSplit
  have e21 : (V1 m ρ c main_v21 : S50000x512.Idx → EReal) = Cert.ReferenceIdeal.Read.val_main_v13 (F := Ideal) (m ((c.tc : Thread nD τ).loc main_arg0)) (m ((c.tc : Thread nD τ).loc main_arg2)) := host_v21 (W0 m ρ c)
  have e51 : (V1 m ρ c main_v51 : S50000x512.Idx → EReal) = Cert.ReferenceIdeal.Read.val_main_v44 (F := Ideal) (m ((c.tc : Thread nD τ).loc main_arg1)) (m ((c.tc : Thread nD τ).loc main_arg4)) := host_v51 (W0 m ρ c)
  have ea0 : (V1 m ρ c main_arg0 : S50000x512.Idx → EReal) = (m ((c.tc : Thread nD τ).loc main_arg0)) := host_arg0 (W0 m ρ c)
  have e26 : (V1 m ρ c main_v26 : S50000x1.Idx → EReal) (ix2 r 0) = Cert.ReferenceIdeal.Read.val_main_v17 (F := Ideal) (m ((c.tc : Thread nD τ).loc main_arg2)) (ix1 r) := host_v26 (W0 m ρ c) r
  have e56 : (V1 m ρ c main_v56 : S50000x1.Idx → EReal) (ix2 r 0) = Cert.ReferenceIdeal.Read.val_main_v48 (F := Ideal) (m ((c.tc : Thread nD τ).loc main_arg4)) (ix1 r) := host_v56 (W0 m ρ c) r
  have e58 : matT (V1 m ρ c main_v58) = mat (m ((c.tc : Thread nD τ).loc main_arg5)) := funext fun j => funext fun k => host_v58 (W0 m ρ c) k j
  have e60 : matT (V1 m ρ c main_v60) = mat (m ((c.tc : Thread nD τ).loc main_arg6)) := funext fun j => funext fun k => host_v60 (W0 m ρ c) k j
  have e66 : matT (V1 m ρ c main_v66) = mat (m ((c.tc : Thread nD τ).loc main_arg11)) := funext fun j => funext fun k => host_v66 (W0 m ρ c) k j
  have e68 : matT (V1 m ρ c main_v68) = mat (m ((c.tc : Thread nD τ).loc main_arg12)) := funext fun j => funext fun k => host_v68 (W0 m ρ c) k j
  have e79 : rowOf (n := 1) (V1 m ρ c main_v79 : S1x512.Idx → EReal) 0 = vec (m ((c.tc : Thread nD τ).loc main_arg7)) := funext fun k => host_v79 (W0 m ρ c) k
  have e80 : rowOf (n := 1) (V1 m ρ c main_v80 : S1x512.Idx → EReal) 0 = vec (m ((c.tc : Thread nD τ).loc main_arg13)) := funext fun k => host_v80 (W0 m ρ c) k
  have e82 : rowOf (n := 1) (V1 m ρ c main_v82 : S1x512.Idx → EReal) 0 = vec (m ((c.tc : Thread nD τ).loc main_arg15)) := funext fun k => host_v82 (W0 m ρ c) k
  have e71 : matT (V1 m ρ c main_v71) = (fun j k => matD (m ((c.tc : Thread nD τ).loc main_arg14)) j (lo k)) := funext fun j => funext fun k => host_v71 (W0 m ρ c) k j
  have e73 : matT (V1 m ρ c main_v73) = (fun j k => matD (m ((c.tc : Thread nD τ).loc main_arg14)) j (hi k)) := funext fun j => funext fun k => host_v73 (W0 m ρ c) k j
  rw [e21, e51, ea0, e26, e56, e58, e60, e66, e68, e79, e80, e82, e71, e73]

/-- The dataset region's function of the arrays it finds is the dataset embedding of the arguments: the paper region
    before it writes none of them. -/
theorem dataset_value (c : Dev nD) :
    datasetArrK (V2 m ρ) c = Cert.RefArr.datasetOfArgs (m ((c.tc : Thread nD τ).loc main_arg0)) (m ((c.tc : Thread nD τ).loc main_arg1)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg16)) (m ((c.tc : Thread nD τ).loc main_arg17)) := by
  funext i
  obtain ⟨r, q, rfl⟩ : ∃ (r : Fin 5000) (q : Fin 512), i = ix2 r q := ⟨i 0, i 1, eq_ix2 i⟩
  show datasetK (V2 m ρ) c r q = Cert.Spec.datasetAt _ _ _ _ _ _ _ _ r q
  unfold datasetK Cert.Spec.datasetAt Cert.Spec.decSplit
  have e36 : (V2 m ρ c main_v36 : S5000x512.Idx → EReal) = Cert.ReferenceIdeal.Read.val_main_v76 (F := Ideal) (m ((c.tc : Thread nD τ).loc main_arg0)) (m ((c.tc : Thread nD τ).loc main_arg3)) :=
    (W2_of_ne m ρ c main_v36 (by decide)).trans (host_v36 (W0 m ρ c))
  have ea1 : (V2 m ρ c main_arg1 : S5000x512.Idx → EReal) = (m ((c.tc : Thread nD τ).loc main_arg1)) :=
    (W2_of_ne m ρ c main_arg1 (by decide)).trans (host_arg1 (W0 m ρ c))
  have e41 : (V2 m ρ c main_v41 : S5000x1.Idx → EReal) (ix2 r 0) = Cert.ReferenceIdeal.Read.val_main_v80 (F := Ideal) (m ((c.tc : Thread nD τ).loc main_arg3)) (ix1 r) :=
    (congrFun (W2_of_ne m ρ c main_v41 (by decide)) (ix2 r 0)).trans (host_v41 (W0 m ρ c) r)
  have e62 : matT (V2 m ρ c main_v62) = mat (m ((c.tc : Thread nD τ).loc main_arg8)) := funext fun j => funext fun k =>
    (congrFun (W2_of_ne m ρ c main_v62 (by decide)) (ix2 k j)).trans (host_v62 (W0 m ρ c) k j)
  have e64 : matT (V2 m ρ c main_v64) = mat (m ((c.tc : Thread nD τ).loc main_arg9)) := funext fun j => funext fun k =>
    (congrFun (W2_of_ne m ρ c main_v64 (by decide)) (ix2 k j)).trans (host_v64 (W0 m ρ c) k j)
  have e81 : rowOf (n := 1) (V2 m ρ c main_v81 : S1x512.Idx → EReal) 0 = vec (m ((c.tc : Thread nD τ).loc main_arg10)) := funext fun k =>
    (congrFun (W2_of_ne m ρ c main_v81 (by decide)) (ix2 0 k)).trans (host_v81 (W0 m ρ c) k)
  have e83 : rowOf (n := 1) (V2 m ρ c main_v83 : S1x512.Idx → EReal) 0 = vec (m ((c.tc : Thread nD τ).loc main_arg17)) := funext fun k =>
    (congrFun (W2_of_ne m ρ c main_v83 (by decide)) (ix2 0 k)).trans (host_v83 (W0 m ρ c) k)
  have e76 : matT (V2 m ρ c main_v76) = (fun j k => matD (m ((c.tc : Thread nD τ).loc main_arg16)) j (lo k)) := funext fun j => funext fun k =>
    (congrFun (W2_of_ne m ρ c main_v76 (by decide)) (ix2 k j)).trans (host_v76 (W0 m ρ c) k j)
  have e78 : matT (V2 m ρ c main_v78) = (fun j k => matD (m ((c.tc : Thread nD τ).loc main_arg16)) j (hi k)) := funext fun j => funext fun k =>
    (congrFun (W2_of_ne m ρ c main_v78 (by decide)) (ix2 k j)).trans (host_v78 (W0 m ρ c) k j)
  rw [e36, ea1, e41, e62, e64, e81, e83, e76, e78]

/-- THE IDEALIZED KERNEL'S RUN: every weakly fair execution ends, nothing faulting, with the two results at the
    embeddings of the arguments and the arguments as launched. -/
theorem run_values : θ_run defs (onTc (τ := τ) (main (F := Ideal))) ⟨m, fun _ => 0, ρ⟩ (fun r => ∀ c : Dev nD,
      r.2.mem ((c.tc : Thread nD τ).loc main_v84) = Cert.RefArr.paperOfArgs (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v85) = Cert.RefArr.datasetOfArgs (m ((c.tc : Thread nD τ).loc main_arg0)) (m ((c.tc : Thread nD τ).loc main_arg1)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c).1.trans ((final0 (V1 m ρ) c).trans (paper_value m ρ c)),
     (h c).2.1.trans ((final1 (V2 m ρ) c).trans (dataset_value m ρ c)),
     ((h c).2.2 _ (mem_uc main_arg0 (by decide))).trans (W3_main_arg0 m ρ c),
     ((h c).2.2 _ (mem_uc main_arg1 (by decide))).trans (W3_main_arg1 m ρ c),
     ((h c).2.2 _ (mem_uc main_arg2 (by decide))).trans (W3_main_arg2 m ρ c),
     ((h c).2.2 _ (mem_uc main_arg3 (by decide))).trans (W3_main_arg3 m ρ c),
     ((h c).2.2 _ (mem_uc main_arg4 (by decide))).trans (W3_main_arg4 m ρ c),
     ((h c).2.2 _ (mem_uc main_arg5 (by decide))).trans (W3_main_arg5 m ρ c),
     ((h c).2.2 _ (mem_uc main_arg6 (by decide))).trans (W3_main_arg6 m ρ c),
     ((h c).2.2 _ (mem_uc main_arg7 (by decide))).trans (W3_main_arg7 m ρ c),
     ((h c).2.2 _ (mem_uc main_arg8 (by decide))).trans (W3_main_arg8 m ρ c),
     ((h c).2.2 _ (mem_uc main_arg9 (by decide))).trans (W3_main_arg9 m ρ c),
     ((h c).2.2 _ (mem_uc main_arg10 (by decide))).trans (W3_main_arg10 m ρ c),
     ((h c).2.2 _ (mem_uc main_arg11 (by decide))).trans (W3_main_arg11 m ρ c),
     ((h c).2.2 _ (mem_uc main_arg12 (by decide))).trans (W3_main_arg12 m ρ c),
     ((h c).2.2 _ (mem_uc main_arg13 (by decide))).trans (W3_main_arg13 m ρ c),
     ((h c).2.2 _ (mem_uc main_arg14 (by decide))).trans (W3_main_arg14 m ρ c),
     ((h c).2.2 _ (mem_uc main_arg15 (by decide))).trans (W3_main_arg15 m ρ c),
     ((h c).2.2 _ (mem_uc main_arg16 (by decide))).trans (W3_main_arg16 m ρ c),
     ((h c).2.2 _ (mem_uc main_arg17 (by decide))).trans (W3_main_arg17 m ρ c)⟩) (Cert.KRun.run_results (F := Ideal) m ρ)

end Cert.KValue

end
-- ==== Proof.lean ====
/-
  The certificate of a heterogeneous graph encoder and decoder: for paper nodes (50000 rows) and dataset nodes
  (5000 rows), a sum of graph convolutions (the mean of the incoming messages — the scatter-added features over the
  clamped message count — times transposed neighbour weights, plus the node's own features times transposed self
  weights, plus a bias), the encoding and the raw features each divided by their clamped Euclidean norm, and a linear
  decoder of the concatenation of the two.

  The kernel keeps the gathers and scatter-additions on the host, exactly as the reference writes them, and runs the
  rest in two device programs that each tile the node axis in blocks of 1000 rows; its decoder multiplies the two
  512-wide halves separately, and it adds the six terms of a paper node's encoding from left to right.  On the
  extended reals both differences vanish: addition is associative and commutative, and a sum over 1024 features is the
  sum of the sums over its halves.  Nothing needs the inputs to be finite, so the precondition is never opened.

  The modules: Spec (the row-level mathematics and the two laws), RefSide and RefArr (the reference's results are the
  specification of the arguments), KBody (a device program's stored block at a row and a feature), KFlush (from blocks to
  the output arrays), KHost (what the host prepares, in terms of the arguments), KRun and KValue (the idealized kernel's
  run with its two results named), FrameK and FrameKI (the frames of the two printed kernels).
-/
import proofs.«137761_j84894323573132_2_alg».proof.Defs
import proofs.«137761_j84894323573132_2_alg».proof.Proof.Gen.Kernel
import proofs.«137761_j84894323573132_2_alg».proof.Proof.Gen.Kernel.Skeleton
import proofs.«137761_j84894323573132_2_alg».proof.Proof.Gen.Kernel.Launch
import proofs.«137761_j84894323573132_2_alg».proof.Proof.Gen.Kernel.Points
import proofs.«137761_j84894323573132_2_alg».proof.Proof.Gen.KernelIdeal
import proofs.«137761_j84894323573132_2_alg».proof.Proof.Gen.KernelIdeal.Skeleton
import proofs.«137761_j84894323573132_2_alg».proof.Proof.Gen.KernelIdeal.Launch
import proofs.«137761_j84894323573132_2_alg».proof.Proof.Gen.KernelIdeal.Points
import proofs.«137761_j84894323573132_2_alg».proof.Proof.Gen.ReferenceIdeal
import proofs.«137761_j84894323573132_2_alg».proof.Proof.Gen.Pre_finite_inputs
import proofs.«137761_j84894323573132_2_alg».proof.Proof.Gen.ReferenceIdeal.Run
import proofs.«137761_j84894323573132_2_alg».proof.Proof.Gen.ReferenceIdeal.Read
import proofs.«137761_j84894323573132_2_alg».proof.Proof.FrameK
import proofs.«137761_j84894323573132_2_alg».proof.Proof.FrameKI
import proofs.«137761_j84894323573132_2_alg».proof.Proof.KValue
import proofs.«137761_j84894323573132_2_alg».proof.Proof.RefArr
import Idealize.ShloMosaic.Adequacy
import Idealize.ShloMosaic.Init

noncomputable section

namespace Cert.Proof

open Idealize.ShloMosaic Idealize.SL.Sem

/-- The printed kernel runs and leaves its arguments as launched. -/
theorem frame_k : Cert.frame_Kernel := fun m ρ _ => Cert.Kernel.GenP.frame m ρ

/-- The idealized kernel runs and leaves its arguments as launched. -/
theorem frame_ki : Cert.frame_KernelIdeal := fun m ρ _ => Cert.KernelIdeal.GenP.frame m ρ

/-- The idealized reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealized kernel is the printed kernel's own text read on the extended reals. -/
theorem preserves : Cert.preserves_Kernel_KernelIdeal := trivial

/-- On the extended reals the idealized kernel and the idealized reference, from memories that agree on the arguments,
    both end with the paper embedding and the dataset embedding of those arguments. -/
theorem algebraic : Cert.algebraic_KernelIdeal_ReferenceIdeal := by
  intro m ρ m' ρ' _ hagree
  refine ⟨_, _, Cert.KValue.run_values m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17⟩ := hagree c
    rw [Cert.ReferenceIdeal.Read.val_main_v131_eq, Cert.RefArr.ref_paper_arr, h0, h1, h2, h4, h5, h6, h7, h11, h12, h13, h14, h15]
  · obtain ⟨h0, h1, h2, h3, h4, h5, h6, h7, h8, h9, h10, h11, h12, h13, h14, h15, h16, h17⟩ := hagree c
    rw [Cert.ReferenceIdeal.Read.val_main_v137_eq, Cert.RefArr.ref_dataset_arr, h0, h1, h3, h8, h9, h10, h16, h17]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
